-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_cst_11) = v1 c
          ∧ r.2.mem ((c.tc : Thread Cert.ReferenceIdeal.nD Cert.ReferenceIdeal.τ).loc Cert.ReferenceIdeal.main_cst_12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x321 : Shape := ⟨3, ![64, 512, 321]⟩
abbrev S321 : Shape := ⟨1, ![321]⟩
abbrev S1008x96 : Shape := ⟨2, ![1008, 96]⟩
abbrev S96 : Shape := ⟨1, ![96]⟩
abbrev S_ : Shape := ⟨0, ![]⟩

class Facts : Prop where
  bcast_S_S64x512x321 : S_.BroadcastsInDim S64x512x321 (![] : Fin 0 → Fin S64x512x321.rank)
  reducesTo_S64x512x321_S_d0_1_2 : S64x512x321.ReducesTo [0, 1, 2] S_
  h_S_ : 0 < S_.numel
  bcast_S_S321 : S_.BroadcastsInDim S321 (![] : Fin 0 → Fin S321.rank)
  reducesTo_S321_S_d0 : S321.ReducesTo [0] S_
  bcast_S_S1008x96 : S_.BroadcastsInDim S1008x96 (![] : Fin 0 → Fin S1008x96.rank)
  reducesTo_S1008x96_S_d0_1 : S1008x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96 .f32) (main_v13 : IVec S_ 1) (main_v16 : IVec S1008x96 1) : IVec S_ 1 :=
  let main_c_5 : IVec S_ 1 := constantI S_ 1 1#1
  let main_v17 : IVec S_ 1 := (fun x v => Host.reduce IntOp.andi x v reducesTo_S1008x96_S_d0_1 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S64x512x321 .f32) (main_arg1 : FVec F S321 .f32) (main_arg2 : FVec F S321 .f32) (main_arg3 : FVec F S1008x96 .f32) (main_arg4 : FVec F S96 .f32) : IVec S_ 1 :=
  let main_v0 : FVec F S64x512x321 .f32 := Host.absf main_arg0
  let main_cst : FVec F S_ .f32 := constant S_ .f32 0x7F800000#32
  let main_v1 : FVec F S64x512x321 .f32 := broadcastInDim S64x512x321 ![] bcast_S_S64x512x321 main_cst
  let main_v2 : IVec S64x512x321 1 := cmpf .olt main_v0 main_v1
  let main_c : IVec S_ 1 := constantI S_ 1 1#1
  let main_v3 : IVec S_ 1 := (fun x v => Host.reduce IntOp.andi x v reducesTo_S64x512x321_S_d0_1_2 h_S_) main_v2 main_c
  let main_v4 : FVec F S321 .f32 := Host.absf main_arg1
  let main_cst_0 : FVec F S_ .f32 := constant S_ .f32 0x7F800000#32
  let main_v5 : FVec F S321 .f32 := broadcastInDim S321 ![] bcast_S_S321 main_cst_0
  let main_v6 : IVec S321 1 := cmpf .olt main_v4 main_v5
  let main_c_1 : IVec S_ 1 := constantI S_ 1 1#1
  let main_v7 : IVec S_ 1 := (fun x v => Host.reduce IntOp.andi x v reducesTo_S321_S_d0 h_S_) main_v6 main_c_1
  let main_v8 : IVec S_ 1 := andi main_v3 main_v7
  let main_v9 : FVec F S321 .f32 := Host.absf main_arg2
  let main_cst_2 : FVec F S_ .f32 := constant S_ .f32 0x7F800000#32
  let main_v10 : FVec F S321 .f32 := broadcastInDim S321 ![] bcast_S_S321 main_cst_2
  let main_v11 : IVec S321 1 := cmpf .olt main_v9 main_v10
  let main_c_3 : IVec S_ 1 := constantI S_ 1 1#1
  let main_v12 : IVec S_ 1 := (fun x v => Host.reduce IntOp.andi x v reducesTo_S321_S_d0 h_S_) main_v11 main_c_3
  let main_v13 : IVec S_ 1 := andi main_v8 main_v12
  let main_v14 : FVec F S1008x96 .f32 := Host.absf main_arg3
  let main_cst_4 : FVec F S_ .f32 := constant S_ .f32 0x7F800000#32
  let main_v15 : FVec F S1008x96 .f32 := broadcastInDim S1008x96 ![] bcast_S_S1008x96 main_cst_4
  let main_v16 : IVec S1008x96 1 := cmpf .olt main_v14 main_v15
  fn_part1 (F := F) main_arg4 main_v13 main_v16
-- ==== Kernel.lean ====
abbrev S64x512x321 : Shape := ⟨3, ![64, 512, 321]⟩
abbrev S321 : Shape := ⟨1, ![321]⟩
abbrev S1008x96 : Shape := ⟨2, ![1008, 96]⟩
abbrev S96 : Shape := ⟨1, ![96]⟩
abbrev S128x512 : Shape := ⟨2, ![128, 512]⟩
abbrev S128x2 : Shape := ⟨2, ![128, 2]⟩
abbrev S64x96x321 : Shape := ⟨3, ![64, 96, 321]⟩
abbrev S_ : Shape := ⟨0, ![]⟩
abbrev S63x16x96 : Shape := ⟨3, ![63, 16, 96]⟩
abbrev S63x8x96 : Shape := ⟨3, ![63, 8, 96]⟩
abbrev S504x96 : Shape := ⟨2, ![504, 96]⟩
abbrev S8x96 : Shape := ⟨2, ![8, 96]⟩
abbrev S512x96 : Shape := ⟨2, ![512, 96]⟩
abbrev S96x512 : Shape := ⟨2, ![96, 512]⟩
abbrev S32x512 : Shape := ⟨2, ![32, 512]⟩
abbrev S96x1 : Shape := ⟨2, ![96, 1]⟩
abbrev S1x96 : Shape := ⟨2, ![1, 96]⟩
abbrev S96x2 : Shape := ⟨2, ![96, 2]⟩
abbrev S32x2 : Shape := ⟨2, ![32, 2]⟩
abbrev S1x512x321 : Shape := ⟨3, ![1, 512, 321]⟩
abbrev S1x96x321 : Shape := ⟨3, ![1, 96, 321]⟩
abbrev S512x321 : Shape := ⟨2, ![512, 321]⟩
abbrev S1x321 : Shape := ⟨2, ![1, 321]⟩
abbrev S128x321 : Shape := ⟨2, ![128, 321]⟩
abbrev S128x1 : Shape := ⟨2, ![128, 1]⟩
abbrev S96x321 : Shape := ⟨2, ![96, 321]⟩

abbrev nBuf : Space → Nat
  | .hbm => 10
  | .vmem => 12
  | .smem => 0
  | _ => 0

abbrev bufTy : (tb : Table) → Fin (tcTables nBuf tb) → BufTy
  | .hbm, ⟨0, _⟩ => ⟨S64x512x321, .f32⟩
  | .hbm, ⟨1, _⟩ => ⟨S321, .f32⟩
  | .hbm, ⟨2, _⟩ => ⟨S321, .f32⟩
  | .hbm, ⟨3, _⟩ => ⟨S1008x96, .f32⟩
  | .hbm, ⟨4, _⟩ => ⟨S96, .f32⟩
  | .hbm, ⟨5, _⟩ => ⟨S128x512, .f32⟩
  | .hbm, ⟨6, _⟩ => ⟨S128x2, .f32⟩
  | .hbm, ⟨7, _⟩ => ⟨S64x96x321, .f32⟩
  | .hbm, ⟨8, _⟩ => ⟨S_, .f32⟩
  | .hbm, ⟨9, _⟩ => ⟨S_, .f32⟩
  | .local _ .vmem, ⟨0, _⟩ => ⟨S1008x96, .f32⟩
  | .local _ .vmem, ⟨1, _⟩ => ⟨S96, .f32⟩
  | .local _ .vmem, ⟨2, _⟩ => ⟨S128x512, .f32⟩
  | .local _ .vmem, ⟨3, _⟩ => ⟨S128x2, .f32⟩
  | .local _ .vmem, ⟨4, _⟩ => ⟨S1x512x321, .f32⟩
  | .local _ .vmem, ⟨5, _⟩ => ⟨S1x512x321, .f32⟩
  | .local _ .vmem, ⟨6, _⟩ => ⟨S321, .f32⟩
  | .local _ .vmem, ⟨7, _⟩ => ⟨S321, .f32⟩
  | .local _ .vmem, ⟨8, _⟩ => ⟨S128x512, .f32⟩
  | .local _ .vmem, ⟨9, _⟩ => ⟨S128x2, .f32⟩
  | .local _ .vmem, ⟨10, _⟩ => ⟨S1x96x321, .f32⟩
  | .local _ .vmem, ⟨11, _⟩ => ⟨S1x96x321, .f32⟩
  | _, _ => ⟨S64x512x321, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0_0 : Ref sig .tc := ⟨.hbm, 5, rfl⟩
abbrev main_call0_v0_1 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := .none

abbrev stage0_0 : Fin 1 → Memref sig .tc .vmem S1008x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x321 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S321 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S321 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x96x321 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1008x96_S1008x96_0_0 : ∀ a, (![0, 0] : Fin 2 → Nat) a + S1008x96.size a ≤ S1008x96.size a
  h_S1008x96 : 0 < S1008x96.numel
  shapeCasts_S1008x96_S63x16x96 : S1008x96.ShapeCasts S63x16x96
  slices_S63x16x96_o0_0_0_S63x8x96 : S63x16x96.Slices ![0, 0, 0] S63x8x96
  shapeCasts_S63x8x96_S504x96 : S63x8x96.ShapeCasts S504x96
  concatenates_S504x96_S8x96_S512x96_d0 : Shape.Concatenates [S504x96, S8x96] S512x96 0
  slices_S63x16x96_o0_8_0_S63x8x96 : S63x16x96.Slices ![0, 8, 0] S63x8x96
  concatenates_S8x96_S504x96_S512x96_d0 : Shape.Concatenates [S8x96, S504x96] S512x96 0
  transposes_S512x96_p1_0_S96x512 : S512x96.Transposes [1, 0] S96x512
  concatenates_S96x512_S32x512_S128x512_d0 : Shape.Concatenates [S96x512, S32x512] S128x512 0
  inb_S128x512_S128x512_0_0 : ∀ a, (![0, 0] : Fin 2 → Nat) a + S128x512.size a ≤ S128x512.size a
  h_S128x512 : 0 < S128x512.numel
  reduces_S96x512_S96 : S96x512.Reduces [1] S96
  shapeCasts_S96_S96x1 : S96.ShapeCasts S96x1
  inb_S96_S96_0 : ∀ a, (![0] : Fin 1 → Nat) a + S96.size a ≤ S96.size a
  h_S96 : 0 < S96.numel
  shapeCasts_S96_S1x96 : S96.ShapeCasts S1x96
  transposes_S1x96_p1_0_S96x1 : S1x96.Transposes [1, 0] S96x1
  concatenates_S96x1_S96x1_S96x2_d1 : Shape.Concatenates [S96x1, S96x1] S96x2 1
  concatenates_S96x2_S32x2_S128x2_d0 : Shape.Concatenates [S96x2, S32x2] S128x2 0
  inb_S128x2_S128x2_0_0 : ∀ a, (![0, 0] : Fin 2 → Nat) a + S128x2.size a ≤ S128x2.size a
  h_S128x2 : 0 < S128x2.numel
  inb_S1x512x321_S1x512x321_0_0_0 : ∀ a, (![0, 0, 0] : Fin 3 → Nat) a + S1x512x321.size a ≤ S1x512x321.size a
  h_S1x512x321 : 0 < S1x512x321.numel
  shapeCasts_S1x512x321_S512x321 : S1x512x321.ShapeCasts S512x321
  reduces_S512x321_S321 : S512x321.Reduces [0] S321
  shapeCasts_S321_S1x321 : S321.ShapeCasts S1x321
  broadcasts_S1x321_S512x321 : S1x321.Broadcasts S512x321
  shapeCasts_S128x512_S128x512 : S128x512.ShapeCasts S128x512
  inb_S321_S321_0 : ∀ a, (![0] : Fin 1 → Nat) a + S321.size a ≤ S321.size a
  h_S321 : 0 < S321.numel
  inb_S128x2_S128x1_0_0 : ∀ a, (![0, 0] : Fin 2 → Nat) a + S128x1.size a ≤ S128x2.size a
  h_S128x1 : 0 < S128x1.numel
  shapeCasts_S128x1_S128x1 : S128x1.ShapeCasts S128x1
  inb_S128x2_S128x1_0_1 : ∀ a, (![0, 1] : Fin 2 → Nat) a + S128x1.size a ≤ S128x2.size a
  broadcasts_S1x321_S128x321 : S1x321.Broadcasts S128x321
  broadcasts_S128x1_S128x321 : S128x1.Broadcasts S128x321
  slices_S128x321_o0_0_S96x321 : S128x321.Slices ![0, 0] S96x321
  inb_S1x96x321_S1x96x321_0_0_0 : ∀ a, (![0, 0, 0] : Fin 3 → Nat) a + S1x96x321.size a ≤ S1x96x321.size a
  h_S1x96x321 : 0 < S1x96x321.numel
  shapeCasts_S1x96x321_S96x321 : S1x96x321.ShapeCasts S96x321
  shapeCasts_S96x321_S1x96x321 : S96x321.ShapeCasts S1x96x321
  dot_S128x512_S512x321_S128x321_1_0_0_1_n_n_wf : DotDims.WF S128x512 S512x321 S128x321 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x321.size a ≤ S64x512x321.size a
  hwx1_0 : ∀ i : grid1.Coords, EltTy.bits .f32 = 32 ∨ (Rect.block (s := S64x512x321) S1x512x321.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S321.size a ≤ S321.size a
  hwx1_1 : ∀ i : grid1.Coords, EltTy.bits .f32 = 32 ∨ (Rect.block (s := S321) S321.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S321.size a ≤ S321.size a
  hwx1_2 : ∀ i : grid1.Coords, EltTy.bits .f32 = 32 ∨ (Rect.block (s := S321) S321.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x512.size a
  hwx1_3 : ∀ i : grid1.Coords, EltTy.bits .f32 = 32 ∨ (Rect.block (s := S128x512) S128x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x2.size a ≤ S128x2.size a
  hwx1_4 : ∀ i : grid1.Coords, EltTy.bits .f32 = 32 ∨ (Rect.block (s := S128x2) S128x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x96x321.size a ≤ S64x96x321.size a
  hwx1_5 : ∀ i : grid1.Coords, EltTy.bits .f32 = 32 ∨ (Rect.block (s := S64x96x321) S1x96x321.size (cc1_transform_5 i) (hinb1_5 i)).WholeWords (EltTy.packing .f32)

variable [Facts₀]

def dot_S128x512_S512x321_S128x321_1_0_0_1_n_n : DotDims S128x512 S512x321 S128x321 where
  lhsContracting := [1]
  rhsContracting := [0]
  lhsNonContracting := [0]
  rhsNonContracting := [1]
  lhsBatch := []
  rhsBatch := []
  wf := dot_S128x512_S512x321_S128x321_1_0_0_1_n_n_wf

abbrev win0_0 : Pipeline.Window sig grid0 :=
  Pipeline.Window.whole (Memref.whole main_arg3) false false (stage0_0 0) (sem0_0 0) (Memref.isWhole_whole _) (hstage0_0 0)

abbrev win0_1 : Pipeline.Window sig grid0 :=
  Pipeline.Window.whole (Memref.whole main_arg4) false false (stage0_1 0) (sem0_1 0) (Memref.isWhole_whole _) (hstage0_1 0)

abbrev win0_2 : Pipeline.Window sig grid0 :=
  Pipeline.Window.whole (Memref.whole main_call0_v0_0) true false (stage0_2 0) (sem0_2 0) (Memref.isWhole_whole _) (hstage0_2 0)

abbrev win0_3 : Pipeline.Window sig grid0 :=
  Pipeline.Window.whole (Memref.whole main_call0_v0_1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x512x321.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S321.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S321.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v0_0) S128x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v0_1) S128x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0_0) S1x96x321.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x512x321 : Shape := ⟨3, ![64, 512, 321]⟩
abbrev S321 : Shape := ⟨1, ![321]⟩
abbrev S1008x96 : Shape := ⟨2, ![1008, 96]⟩
abbrev S96 : Shape := ⟨1, ![96]⟩
abbrev S64x321x512 : Shape := ⟨3, ![64, 321, 512]⟩
abbrev S20544x512 : Shape := ⟨2, ![20544, 512]⟩
abbrev S_ : Shape := ⟨0, ![]⟩
abbrev S20736x512 : Shape := ⟨2, ![20736, 512]⟩
abbrev S1x321 : Shape := ⟨2, ![1, 321]⟩
abbrev S64x321 : Shape := ⟨2, ![64, 321]⟩
abbrev S20544 : Shape := ⟨1, ![20544]⟩
abbrev S20544x1 : Shape := ⟨2, ![20544, 1]⟩
abbrev S20736x1 : Shape := ⟨2, ![20736, 1]⟩
abbrev S1008x128 : Shape := ⟨2, ![1008, 128]⟩
abbrev S128 : Shape := ⟨1, ![128]⟩
abbrev S1x128 : Shape := ⟨2, ![1, 128]⟩
abbrev S63 : Shape := ⟨1, ![63]⟩
abbrev S63x1 : Shape := ⟨2, ![63, 1]⟩
abbrev S16 : Shape := ⟨1, ![16]⟩
abbrev S1x16 : Shape := ⟨2, ![1, 16]⟩
abbrev S63x16 : Shape := ⟨2, ![63, 16]⟩
abbrev S1008 : Shape := ⟨1, ![1008]⟩
abbrev S512x128 : Shape := ⟨2, ![512, 128]⟩
abbrev S1008x1 : Shape := ⟨2, ![1008, 1]⟩
abbrev S20736x128 : Shape := ⟨2, ![20736, 128]⟩
abbrev S256x512 : Shape := ⟨2, ![256, 512]⟩
abbrev S256x1 : Shape := ⟨2, ![256, 1]⟩
abbrev S256x128 : Shape := ⟨2, ![256, 128]⟩
abbrev S256 : Shape := ⟨1, ![256]⟩
abbrev S20544x96 : Shape := ⟨2, ![20544, 96]⟩
abbrev S64x321x96 : Shape := ⟨3, ![64, 321, 96]⟩
abbrev S64x96x321 : Shape := ⟨3, ![64, 96, 321]⟩

abbrev nBuf : Space → Nat
  | .hbm => 71
  | .vmem => 12
  | .smem => 0
  | _ => 0

abbrev bufTy : (tb : Table) → Fin (tcTables nBuf tb) → BufTy
  | .hbm, ⟨0, _⟩ => ⟨S64x512x321, .f32⟩
  | .hbm, ⟨1, _⟩ => ⟨S321, .f32⟩
  | .hbm, ⟨2, _⟩ => ⟨S321, .f32⟩
  | .hbm, ⟨3, _⟩ => ⟨S1008x96, .f32⟩
  | .hbm, ⟨4, _⟩ => ⟨S96, .f32⟩
  | .hbm, ⟨5, _⟩ => ⟨S64x321x512, .f32⟩
  | .hbm, ⟨6, _⟩ => ⟨S20544x512, .f32⟩
  | .hbm, ⟨7, _⟩ => ⟨S_, .i32⟩
  | .hbm, ⟨8, _⟩ => ⟨S_, .f32⟩
  | .hbm, ⟨9, _⟩ => ⟨S20736x512, .f32⟩
  | .hbm, ⟨10, _⟩ => ⟨S1x321, .f32⟩
  | .hbm, ⟨11, _⟩ => ⟨S64x321, .f32⟩
  | .hbm, ⟨12, _⟩ => ⟨S20544, .f32⟩
  | .hbm, ⟨13, _⟩ => ⟨S20544x1, .f32⟩
  | .hbm, ⟨14, _⟩ => ⟨S1x321, .f32⟩
  | .hbm, ⟨15, _⟩ => ⟨S64x321, .f32⟩
  | .hbm, ⟨16, _⟩ => ⟨S20544, .f32⟩
  | .hbm, ⟨17, _⟩ => ⟨S20544x1, .f32⟩
  | .hbm, ⟨18, _⟩ => ⟨S_, .f32⟩
  | .hbm, ⟨19, _⟩ => ⟨S20544x1, .f32⟩
  | .hbm, ⟨20, _⟩ => ⟨S20544x1, .f32⟩
  | .hbm, ⟨21, _⟩ => ⟨S_, .f32⟩
  | .hbm, ⟨22, _⟩ => ⟨S20544x1, .f32⟩
  | .hbm, ⟨23, _⟩ => ⟨S20544x1, .f32⟩
  | .hbm, ⟨24, _⟩ => ⟨S_, .f32⟩
  | .hbm, ⟨25, _⟩ => ⟨S_, .f32⟩
  | .hbm, ⟨26, _⟩ => ⟨S20736x1, .f32⟩
  | .hbm, ⟨27, _⟩ => ⟨S_, .i32⟩
  | .hbm, ⟨28, _⟩ => ⟨S_, .f32⟩
  | .hbm, ⟨29, _⟩ => ⟨S20736x1, .f32⟩
  | .hbm, ⟨30, _⟩ => ⟨S_, .f32⟩
  | .hbm, ⟨31, _⟩ => ⟨S_, .f32⟩
  | .hbm, ⟨32, _⟩ => ⟨S20736x1, .f32⟩
  | .hbm, ⟨33, _⟩ => ⟨S_, .i32⟩
  | .hbm, ⟨34, _⟩ => ⟨S_, .f32⟩
  | .hbm, ⟨35, _⟩ => ⟨S1008x128, .f32⟩
  | .hbm, ⟨36, _⟩ => ⟨S_, .i32⟩
  | .hbm, ⟨37, _⟩ => ⟨S_, .f32⟩
  | .hbm, ⟨38, _⟩ => ⟨S128, .f32⟩
  | .hbm, ⟨39, _⟩ => ⟨S1x128, .f32⟩
  | .hbm, ⟨40, _⟩ => ⟨S63, .i32⟩
  | .hbm, ⟨41, _⟩ => ⟨S63x1, .i32⟩
  | .hbm, ⟨42, _⟩ => ⟨S_, .i32⟩
  | .hbm, ⟨43, _⟩ => ⟨S63x1, .i32⟩
  | .hbm, ⟨44, _⟩ => ⟨S63x1, .i32⟩
  | .hbm, ⟨45, _⟩ => ⟨S_, .i32⟩
  | .hbm, ⟨46, _⟩ => ⟨S63x1, .i32⟩
  | .hbm, ⟨47, _⟩ => ⟨S63x1, .i32⟩
  | .hbm, ⟨48, _⟩ => ⟨S16, .i32⟩
  | .hbm, ⟨49, _⟩ => ⟨S1x16, .i32⟩
  | .hbm, ⟨50, _⟩ => ⟨S63x16, .i32⟩
  | .hbm, ⟨51, _⟩ => ⟨S63x16, .i32⟩
  | .hbm, ⟨52, _⟩ => ⟨S63x16, .i32⟩
  | .hbm, ⟨53, _⟩ => ⟨S1008, .i32⟩
  | .hbm, ⟨54, _⟩ => ⟨S_, .f32⟩
  | .hbm, ⟨55, _⟩ => ⟨S512x128, .f32⟩
  | .hbm, ⟨56, _⟩ => ⟨S_, .i32⟩
  | .hbm, ⟨57, _⟩ => ⟨S1008, .i32⟩
  | .hbm, ⟨58, _⟩ => ⟨S1008, .i1⟩
  | .hbm, ⟨59, _⟩ => ⟨S_, .i32⟩
  | .hbm, ⟨60, _⟩ => ⟨S1008, .i32⟩
  | .hbm, ⟨61, _⟩ => ⟨S1008, .i32⟩
  | .hbm, ⟨62, _⟩ => ⟨S1008, .i32⟩
  | .hbm, ⟨63, _⟩ => ⟨S1008x1, .i32⟩
  | .hbm, ⟨64, _⟩ => ⟨S512x128, .f32⟩
  | .hbm, ⟨65, _⟩ => ⟨S20736x128, .f32⟩
  | .hbm, ⟨66, _⟩ => ⟨S20544x96, .f32⟩
  | .hbm, ⟨67, _⟩ => ⟨S64x321x96, .f32⟩
  | .hbm, ⟨68, _⟩ => ⟨S64x96x321, .f32⟩
  | .hbm, ⟨69, _⟩ => ⟨S_, .f32⟩
  | .hbm, ⟨70, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S512x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | _, _ => ⟨S64x512x321, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_call1_v0 : Ref sig .tc := ⟨.hbm, 25, rfl⟩
abbrev main_v15 : Ref sig .tc := ⟨.hbm, 26, rfl⟩
abbrev main_c_2 : Ref sig .tc := ⟨.hbm, 27, rfl⟩
abbrev main_call2_v0 : Ref sig .tc := ⟨.hbm, 28, rfl⟩
abbrev main_v16 : Ref sig .tc := ⟨.hbm, 29, rfl⟩
abbrev main_cst_3 : Ref sig .tc := ⟨.hbm, 30, rfl⟩
abbrev main_call3_v0 : Ref sig .tc := ⟨.hbm, 31, rfl⟩
abbrev main_v17 : Ref sig .tc := ⟨.hbm, 32, rfl⟩
abbrev main_c_4 : Ref sig .tc := ⟨.hbm, 33, rfl⟩
abbrev main_call4_v0 : Ref sig .tc := ⟨.hbm, 34, rfl⟩
abbrev main_v18 : Ref sig .tc := ⟨.hbm, 35, rfl⟩
abbrev main_c_5 : Ref sig .tc := ⟨.hbm, 36, rfl⟩
abbrev main_call5_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_cst_12 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![81], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S64x512x321_S64x321x512_0_2_1 : S64x512x321.Transposes [0, 2, 1] S64x321x512
  shapeCasts_S64x321x512_S20544x512 : S64x321x512.ShapeCasts S20544x512
  pads_S20544x512_S20736x512_01920_000 : S20544x512.Pads (![0, 0] : Fin 2 → Nat) ![192, 0] ![0, 0] S20736x512
  h_S_ : 0 < S_.numel
  shapeCasts_S321_S1x321 : S321.ShapeCasts S1x321
  bcast_S1x321_S64x321_0_1 : S1x321.BroadcastsInDim S64x321 (![0, 1] : Fin 2 → Fin S64x321.rank)
  shapeCasts_S64x321_S20544 : S64x321.ShapeCasts S20544
  shapeCasts_S20544_S20544x1 : S20544.ShapeCasts S20544x1
  bcast_S_S20544x1 : S_.BroadcastsInDim S20544x1 (![] : Fin 0 → Fin S20544x1.rank)
  pads_S20544x1_S20736x1_01920_000 : S20544x1.Pads (![0, 0] : Fin 2 → Nat) ![192, 0] ![0, 0] S20736x1
  pads_S1008x96_S1008x128_000_0320 : S1008x96.Pads (![0, 0] : Fin 2 → Nat) ![0, 32] ![0, 0] S1008x128
  pads_S96_S128_0320 : S96.Pads (![0] : Fin 1 → Nat) ![32] ![0] S128
  shapeCasts_S128_S1x128 : S128.ShapeCasts S1x128
  bcast_S63_S63x1_0 : S63.BroadcastsInDim S63x1 (![0] : Fin 1 → Fin S63x1.rank)
  bcast_S_S63x1 : S_.BroadcastsInDim S63x1 (![] : Fin 0 → Fin S63x1.rank)
  bcast_S16_S1x16_1 : S16.BroadcastsInDim S1x16 (![1] : Fin 1 → Fin S1x16.rank)
  bcast_S63x1_S63x16_0_1 : S63x1.BroadcastsInDim S63x16 (![0, 1] : Fin 2 → Fin S63x16.rank)
  bcast_S1x16_S63x16_0_1 : S1x16.BroadcastsInDim S63x16 (![0, 1] : Fin 2 → Fin S63x16.rank)
  shapeCasts_S63x16_S1008 : S63x16.ShapeCasts S1008
  bcast_S_S512x128 : S_.BroadcastsInDim S512x128 (![] : Fin 0 → Fin S512x128.rank)
  bcast_S_S1008 : S_.BroadcastsInDim S1008 (![] : Fin 0 → Fin S1008.rank)
  bcast_S1008_S1008x1_0 : S1008.BroadcastsInDim S1008x1 (![0] : Fin 1 → Fin S1008x1.rank)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S256x512_S256 : S256x512.Reduces [1] S256
  shapeCasts_S256_S256x1 : S256.ShapeCasts S256x1
  broadcasts_S256x1_S256x512 : S256x1.Broadcasts S256x512
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  broadcasts_S256x1_S256x128 : S256x1.Broadcasts S256x128
  inb_S256x128_S256x128_0_0 : ∀ a, (![0, 0] : Fin 2 → Nat) a + S256x128.size a ≤ S256x128.size a
  h_S256x128 : 0 < S256x128.numel
  slices_S20736x128_S20544x96_0_0 : S20736x128.Slices ![0, 0] S20544x96
  shapeCasts_S20544x96_S64x321x96 : S20544x96.ShapeCasts S64x321x96
  transposes_S64x321x96_S64x96x321_0_2_1 : S64x321x96.Transposes [0, 2, 1] S64x96x321
  scatter_S512x128_S1008x1_S1008x128_1_0_0_1_wf : ScatterDims.WF S512x128 S1008x1 S1008x128 [1] [0] [0] 1
  dot_S256x512_S512x128_S256x128_1_0_0_1_n_n_wf : DotDims.WF S256x512 S512x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S20736x512.size a
  hwx0_0 : ∀ i : grid0.Coords, EltTy.bits .f32 = 32 ∨ (Rect.block (s := S20736x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S20736x1.size a
  hwx0_1 : ∀ i : grid0.Coords, EltTy.bits .f32 = 32 ∨ (Rect.block (s := S20736x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S20736x1.size a
  hwx0_2 : ∀ i : grid0.Coords, EltTy.bits .f32 = 32 ∨ (Rect.block (s := S20736x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S20736x1.size a
  hwx0_3 : ∀ i : grid0.Coords, EltTy.bits .f32 = 32 ∨ (Rect.block (s := S20736x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S20736x128.size a
  hwx0_6 : ∀ i : grid0.Coords, EltTy.bits .f32 = 32 ∨ (Rect.block (s := S20736x128) S256x128.size (cc0_transform_6 i) (hinb0_6 i)).WholeWords (EltTy.packing .f32)

variable [Facts₀]

def scatter_S512x128_S1008x1_S1008x128_1_0_0_1 : ScatterDims S512x128 S1008x1 S1008x128 where
  updateWindowDims := [1]
  insertedWindowDims := [0]
  scatterDimsToOperandDims := [0]
  indexVectorDim := 1
  wf := scatter_S512x128_S1008x1_S1008x128_1_0_0_1_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_v2) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S256x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== Proof.Spec.lean ====
/-
  The specification. One output entry of the forecast depends on one series X : Fin 512 → EReal (a batch element's
  channel over time), that channel's affine weight w and bias b, one row W : Fin 512 → EReal of the head weight
  folded onto time positions, and the head bias hb of that row.

  With mean X = (∑ X) / 512, var X = (∑ (X - mean)²) / 512, istd X = (var X + ε)^(-1/2) and
  std X = (var X + ε) · istd X, the entry is, in one arrangement (outK),
      ((W·X) · a + (∑ W) · (b - a · mean) + (hb - b)) · (std / (w + ε²)) + mean,      a = w · istd,
  and in the other (outR)
      ((∑ₛ ((Xₛ - mean) · istd · w + b) · Wₛ) + hb - b) · ((1 / (w + ε²)) · std) + mean.
  Over the reals the two agree by distributing the sum; Algebra.lean proves it for finite data.

  The head weight has 63 patches of 16 rows, patch p starting at time 8 p: row q of the flattened weight reads
  time timeOf q = 8 · (q / 16) + q % 16. Folding it onto the 512 time positions is, in one form (foldR), the sum
  of the rows that land on a position, and in the other (foldK) the sum of two shifted slabs: the first halves of
  the patches (positions 0 … 503) and the second halves (positions 8 … 511).
-/
import Idealize.ShloMosaic.PureOps.Ideal

noncomputable section

namespace Cert.NormHead

open Idealize.ShloMosaic

/-- 2⁻⁹ = 1/512, exactly. -/
abbrev invLen : EReal := Ideal.ofBits .f32 0x3B000000#32
/-- The variance offset ε (the binary value nearest 1e-5). -/
abbrev eps : EReal := Ideal.ofBits .f32 0x3727C5AC#32
/-- The weight offset ε² (the binary value nearest 1e-10). -/
abbrev epsSq : EReal := Ideal.ofBits .f32 0x2EDBE6FF#32
/-- The numerator 1 of the hoisted reciprocal. -/
abbrev one : EReal := Ideal.ofBits .f32 0x3F800000#32

def mean (X : Fin 512 → EReal) : EReal := (∑ s, X s) * invLen
def var (X : Fin 512 → EReal) : EReal := (∑ s, (X s - mean X) * (X s - mean X)) * invLen
def istd (X : Fin 512 → EReal) : EReal := Ideal.rsqrt (var X + eps)
def std (X : Fin 512 → EReal) : EReal := (var X + eps) * istd X

/-- The entry with the affine map and the normalisation folded through the head product. -/
def outK (X W : Fin 512 → EReal) (w b hb : EReal) : EReal :=
  (((∑ s, W s * X s) * (w * istd X) + (∑ s, W s) * (b - w * istd X * mean X)) + (hb - b))
    * Ideal.div (std X) (w + epsSq) + mean X

/-- The entry computed in order — normalise, affine map, head product, head bias, denormalise — with the
    reciprocal iw of the offset weight given. -/
def outRi (X W : Fin 512 → EReal) (w b hb iw : EReal) : EReal :=
  (((∑ s, ((X s - mean X) * istd X * w + b) * W s) + hb) - b) * (iw * std X) + mean X

/-- The same with the reciprocal taken of the offset weight. -/
def outR (X W : Fin 512 → EReal) (w b hb : EReal) : EReal :=
  outRi X W w b hb (Ideal.div one (w + epsSq))

/-- The time position row q of the flattened head weight reads. -/
def timeOf (q : Fin 1008) : Fin 512 := ⟨8 * (q.val / 16) + q.val % 16, by omega⟩

/-- The folded weight as the sum of the rows landing on a position. -/
def foldR (h : Fin 1008 → EReal) (s : Fin 512) : EReal :=
  0 + ∑ q ∈ Finset.univ.filter (fun q => timeOf q = s), h q

/-- The folded weight as two shifted slabs. -/
def foldK (h : Fin 1008 → EReal) (s : Fin 512) : EReal :=
  (if hs : s.val < 504 then h ⟨16 * (s.val / 8) + s.val % 8, by omega⟩ else 0)
    + (if hs : s.val < 8 then 0 else h ⟨16 * ((s.val - 8) / 8) + 8 + (s.val - 8) % 8, by omega⟩)

end Cert.NormHead

end
-- ==== Proof.Algebra.lean ====
/-
  The algebra of the specification, with no program in sight.

  (1) The two folds of the head weight agree at every position s: the rows q with timeOf q = s are
      q₀ = 16 · (s / 8) + s % 8 (present iff s < 504) and q₁ = 16 · ((s - 8) / 8) + 8 + (s - 8) % 8 (present iff
      s ≥ 8), and they are different, so the sum over those rows is h q₀ + h q₁ with an absent one read as 0.
  (2) A fold of real data is real.
  (3) The two arrangements of an output entry agree on real data. Extended-real multiplication does not distribute
      over addition in general, so every quantity is first written as the coercion of a real: the mean; the
      variance v ≥ 0; with ε > 0 the inverse deviation (√(v + ε))⁻¹ and the deviation (v + ε) · (√(v + ε))⁻¹ > 0.
      The scale std / (w + ε²) equals (1 / (w + ε²)) · std: off zero both are std · (w + ε²)⁻¹, and at
      w + ε² = 0 both are ⊤ because std > 0 and 1 > 0. The numerators agree by distributing the real sum.
-/
import proofs.«114494_g2000605969816161_pallasbulk_1287_5_alg».proof.Proof.Spec

noncomputable section

namespace Cert.NormHead

open Idealize.ShloMosaic

/-! ### The two folds agree -/

theorem foldK_eq_foldR (h : Fin 1008 → EReal) : foldK h = foldR h := by
  funext s
  have hsl := s.isLt
  unfold foldK foldR
  rw [zero_add]
  by_cases h8 : s.val < 8
  · have hs : s.val < 504 := by omega
    rw [dif_pos hs, dif_pos h8, add_zero]
    have hf : Finset.univ.filter (fun q => timeOf q = s)
        = {(⟨16 * (s.val / 8) + s.val % 8, by omega⟩ : Fin 1008)} := by
      ext q
      have hql := q.isLt
      simp only [Finset.mem_filter, Finset.mem_univ, true_and, Finset.mem_singleton, timeOf, Fin.ext_iff]
      omega
    rw [hf, Finset.sum_singleton]
  · by_cases h504 : s.val < 504
    · rw [dif_pos h504, dif_neg h8]
      have hf : Finset.univ.filter (fun q => timeOf q = s)
          = {(⟨16 * (s.val / 8) + s.val % 8, by omega⟩ : Fin 1008),
             (⟨16 * ((s.val - 8) / 8) + 8 + (s.val - 8) % 8, by omega⟩ : Fin 1008)} := by
        ext q
        have hql := q.isLt
        simp only [Finset.mem_filter, Finset.mem_univ, true_and, Finset.mem_insert, Finset.mem_singleton, timeOf,
          Fin.ext_iff]
        omega
      have hne : (⟨16 * (s.val / 8) + s.val % 8, by omega⟩ : Fin 1008)
          ≠ ⟨16 * ((s.val - 8) / 8) + 8 + (s.val - 8) % 8, by omega⟩ := by
        simp only [ne_eq, Fin.ext_iff]
        omega
      rw [hf, Finset.sum_pair hne]
    · rw [dif_neg h504, dif_neg h8, zero_add]
      have hf : Finset.univ.filter (fun q => timeOf q = s)
          = {(⟨16 * ((s.val - 8) / 8) + 8 + (s.val - 8) % 8, by omega⟩ : Fin 1008)} := by
        ext q
        have hql := q.isLt
        simp only [Finset.mem_filter, Finset.mem_univ, true_and, Finset.mem_singleton, timeOf, Fin.ext_iff]
        omega
      rw [hf, Finset.sum_singleton]

/-! ### Sums of real data stay real -/

theorem coe_sum {ι : Type} (t : Finset ι) (f : ι → ℝ) :
    (∑ s ∈ t, ((f s : ℝ) : EReal)) = ((∑ s ∈ t, f s : ℝ) : EReal) := by
  classical
  induction t using Finset.induction_on with
  | empty => simp
  | insert a t ha ih => rw [Finset.sum_insert ha, Finset.sum_insert ha, ih, EReal.coe_add]

theorem foldR_real (h : Fin 1008 → EReal) (hh : ∀ q, ∃ r : ℝ, h q = (r : EReal)) (s : Fin 512) :
    ∃ r : ℝ, foldR h s = (r : EReal) := by
  choose g hg using hh
  refine ⟨∑ q ∈ Finset.univ.filter (fun q => timeOf q = s), g q, ?_⟩
  unfold foldR
  rw [zero_add, ← coe_sum]
  exact Finset.sum_congr rfl (fun q _ => hg q)

/-! ### The constants are real numbers -/

theorem invLen_eq : invLen = (((1 : ℝ) / 512 : ℝ) : EReal) := by
  simp [Ideal.ofBits, Ideal.ieee, -EReal.coe_mul]; norm_num

theorem one_eq : one = ((1 : ℝ) : EReal) := by
  simp [Ideal.ofBits, Ideal.ieee, -EReal.coe_mul]; norm_num

theorem eps_eq : eps = (((10995116 : ℝ) * (2 : ℝ) ^ (-40 : Int) : ℝ) : EReal) := by
  simp [Ideal.ofBits, Ideal.ieee, -EReal.coe_mul]

theorem eps_pos : ∃ e : ℝ, 0 < e ∧ eps = (e : EReal) :=
  ⟨_, by positivity, eps_eq⟩

theorem epsSq_real : ∃ e : ℝ, epsSq = (e : EReal) := by
  simp [Ideal.ofBits, Ideal.ieee, -EReal.coe_mul]

/-! ### Mean, variance, inverse deviation and deviation of real data -/

theorem mean_coe (x : Fin 512 → ℝ) :
    mean (fun s => (x s : EReal)) = (((∑ s, x s) * (1 / 512) : ℝ) : EReal) := by
  rw [mean, invLen_eq, coe_sum, ← EReal.coe_mul]

theorem var_coe (x : Fin 512 → ℝ) :
    ∃ v : ℝ, 0 ≤ v ∧ var (fun s => (x s : EReal)) = (v : EReal) := by
  refine ⟨(∑ s, (x s - (∑ s, x s) * (1 / 512)) * (x s - (∑ s, x s) * (1 / 512))) * (1 / 512), ?_, ?_⟩
  · exact mul_nonneg (Finset.sum_nonneg (fun s _ => mul_self_nonneg _)) (by norm_num)
  · rw [var, mean_coe, invLen_eq]
    simp only [← EReal.coe_sub, ← EReal.coe_mul, coe_sum]

/-- The inverse deviation and the deviation of real data are positive reals. -/
theorem istd_std_coe (x : Fin 512 → ℝ) :
    ∃ i d : ℝ, 0 < d ∧ istd (fun s => (x s : EReal)) = (i : EReal) ∧ std (fun s => (x s : EReal)) = (d : EReal) := by
  obtain ⟨v, hv0, hv⟩ := var_coe x
  obtain ⟨e, he0, he⟩ := eps_pos
  have hy : 0 < v + e := by linarith
  have hi : istd (fun s => (x s : EReal)) = (((Real.sqrt (v + e))⁻¹ : ℝ) : EReal) := by
    rw [istd, hv, he, ← EReal.coe_add, Ideal.rsqrt_coe, if_neg (not_lt.mpr hy.le), if_neg hy.ne']
  refine ⟨(Real.sqrt (v + e))⁻¹, (v + e) * (Real.sqrt (v + e))⁻¹, ?_, hi, ?_⟩
  · exact mul_pos hy (inv_pos.mpr (Real.sqrt_pos.mpr hy))
  · rw [std, hi, hv, he, ← EReal.coe_add, ← EReal.coe_mul]

/-! ### The two scales agree -/

theorem div_zero_of_pos (a : EReal) (ha : 0 < a) : Ideal.div a ((0 : ℝ) : EReal) = ⊤ := by
  rw [Ideal.div, if_pos EReal.coe_zero, if_pos ha]

theorem scale_eq (d y : ℝ) (hd : 0 < d) :
    Ideal.div (d : EReal) (y : EReal) = Ideal.div one (y : EReal) * (d : EReal) := by
  rw [one_eq]
  by_cases hy : y = 0
  · subst hy
    have h1 : (0 : EReal) < ((1 : ℝ) : EReal) := by exact_mod_cast one_pos
    have hd' : (0 : EReal) < (d : EReal) := by exact_mod_cast hd
    rw [div_zero_of_pos _ hd', div_zero_of_pos _ h1, EReal.top_mul_coe_of_pos hd]
  · rw [Ideal.div_coe hy, Ideal.div_coe hy, ← EReal.coe_mul, ← EReal.coe_mul, ← EReal.coe_mul]
    congr 1
    ring

/-! ### The two numerators agree over the reals -/

theorem numer_real {ι : Type} [Fintype ι] (x W : ι → ℝ) (w b hb i μ : ℝ) :
    ((∑ s, W s * x s) * (w * i) + (∑ s, W s) * (b - w * i * μ)) + (hb - b)
      = ((∑ s, ((x s - μ) * i * w + b) * W s) + hb) - b := by
  have h : ∑ s, ((x s - μ) * i * w + b) * W s
      = (∑ s, W s * x s) * (w * i) + (∑ s, W s) * (b - w * i * μ) := by
    rw [Finset.sum_mul, Finset.sum_mul, ← Finset.sum_add_distrib]
    exact Finset.sum_congr rfl (fun s _ => by ring)
  rw [h]; ring

theorem numer_coe {ι : Type} [Fintype ι] (x W : ι → ℝ) (w b hb i μ : ℝ) :
    ((∑ s, (W s : EReal) * (x s : EReal)) * ((w : EReal) * (i : EReal))
        + (∑ s, (W s : EReal)) * ((b : EReal) - (w : EReal) * (i : EReal) * (μ : EReal))) + ((hb : EReal) - (b : EReal))
      = ((∑ s, (((x s : EReal) - (μ : EReal)) * (i : EReal) * (w : EReal) + (b : EReal)) * (W s : EReal))
          + (hb : EReal)) - (b : EReal) := by
  simp only [← EReal.coe_sub, ← EReal.coe_mul, ← EReal.coe_add, coe_sum]
  rw [numer_real]

theorem outK_eq_outR (X W : Fin 512 → EReal) (w b hb : EReal)
    (hX : ∀ s, ∃ r : ℝ, X s = (r : EReal)) (hW : ∀ s, ∃ r : ℝ, W s = (r : EReal))
    (hw : ∃ r : ℝ, w = (r : EReal)) (hb' : ∃ r : ℝ, b = (r : EReal)) (hhb : ∃ r : ℝ, hb = (r : EReal)) :
    outK X W w b hb = outR X W w b hb := by
  choose x hx using hX
  choose W' hW' using hW
  obtain ⟨w', rfl⟩ := hw
  obtain ⟨b', rfl⟩ := hb'
  obtain ⟨hb'', rfl⟩ := hhb
  have hXe : X = fun s => (x s : EReal) := funext hx
  have hWe : W = fun s => (W' s : EReal) := funext hW'
  obtain ⟨i, d, hd, hi, hsd⟩ := istd_std_coe x
  obtain ⟨e2, he2⟩ := epsSq_real
  rw [hXe, hWe]
  unfold outK outR outRi
  rw [hi, hsd, mean_coe x, he2, ← EReal.coe_add, scale_eq d (w' + e2) hd]
  rw [numer_coe x W' w' b' hb'' i ((∑ s, x s) * (1 / 512))]

end Cert.NormHead
end
-- ==== Proof.Finite.lean ====
/-
  Finiteness of the inputs, read back from the precondition.

  The precondition says that, on every device, the conjunction over the five argument arrays of
  "every entry x has |x| < +∞" is the one-bit word 1.  In the extended reals |x| = max x (-x), and
  max x (-x) < ⊤ excludes both ⊤ (where x = ⊤) and ⊥ (where -x = ⊤), so every entry is the coercion
  of a real number.
-/
import proofs.«114494_g2000605969816161_pallasbulk_1287_5_alg».proof.Defs
import proofs.«114494_g2000605969816161_pallasbulk_1287_5_alg».proof.Proof.Gen.KernelIdeal
import proofs.«114494_g2000605969816161_pallasbulk_1287_5_alg».proof.Proof.Gen.Pre_finite_inputs
import Idealize.ShloMosaic.Lib.ReduceAll
import Idealize.ShloMosaic.Lib.ValueIdx

namespace Cert.KernelIdeal.Finite

open Idealize.ShloMosaic Idealize.SL.Sem

/-- The f32 pattern of +∞ is the top element of the extended reals. -/
theorem ofBits_inf_f32 : Ideal.ofBits .f32 0x7F800000#32 = (⊤ : EReal) := by
  simp [Ideal.ofBits, Ideal.ieee]

/-- An extended real whose absolute value max x (-x) is strictly below ⊤ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison "|x| < +∞" coming out as the word 1 says that x is a real number. -/
theorem real_of_cmp (x : EReal)
    (h : Ideal.cmp .olt (max x (-x)) (Ideal.ofBits .f32 0x7F800000#32) = 1#1) : ∃ r : ℝ, x = (r : EReal) := by
  rw [ofBits_inf_f32] at h
  apply real_of_abs_lt_top
  by_contra hn
  simp [Ideal.cmp, hn] at h

/-- A rank-0 shape has exactly one index. -/
instance : Subsingleton Cert.Pre_finite_inputs.S_.Idx := ⟨fun a b => funext fun d => d.elim0⟩

/-- One argument: if the all-reduction of "|x| < +∞" over the whole array is 1, every entry is real. -/
theorem all_real {T : Shape} {axes : List (Fin T.rank)}
    (hb : Cert.Pre_finite_inputs.S_.BroadcastsInDim T (![] : Fin 0 → Fin T.rank))
    (hr : T.ReducesTo axes Cert.Pre_finite_inputs.S_) (hu : 0 < Cert.Pre_finite_inputs.S_.numel)
    (x : FVec Ideal T .f32)
    (e : Host.reduce IntOp.andi
          (cmpf .olt (Host.absf x)
            (broadcastInDim T ![] hb (constant (F := Ideal) Cert.Pre_finite_inputs.S_ .f32 0x7F800000#32)))
          (constantI Cert.Pre_finite_inputs.S_ 1 1#1) hr hu ValueIdx.ix0 = 1#1)
    (i : T.Idx) : ∃ r : ℝ, x i = (r : EReal) :=
  real_of_cmp (x i) (Host.reduce_andi_all _ _ hr hu ValueIdx.ix0 e i)

theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
      (∀ i, ∃ r : ℝ, (m ((c.tc : Thread Cert.KernelIdeal.nD Cert.KernelIdeal.τ).loc Cert.KernelIdeal.main_arg0) : Cert.KernelIdeal.S64x512x321.Idx → EReal) i = (r : EReal))
    ∧ (∀ i, ∃ r : ℝ, (m ((c.tc : Thread Cert.KernelIdeal.nD Cert.KernelIdeal.τ).loc Cert.KernelIdeal.main_arg1) : Cert.KernelIdeal.S321.Idx → EReal) i = (r : EReal))
    ∧ (∀ i, ∃ r : ℝ, (m ((c.tc : Thread Cert.KernelIdeal.nD Cert.KernelIdeal.τ).loc Cert.KernelIdeal.main_arg2) : Cert.KernelIdeal.S321.Idx → EReal) i = (r : EReal))
    ∧ (∀ i, ∃ r : ℝ, (m ((c.tc : Thread Cert.KernelIdeal.nD Cert.KernelIdeal.τ).loc Cert.KernelIdeal.main_arg3) : Cert.KernelIdeal.S1008x96.Idx → EReal) i = (r : EReal))
    ∧ (∀ i, ∃ r : ℝ, (m ((c.tc : Thread Cert.KernelIdeal.nD Cert.KernelIdeal.τ).loc Cert.KernelIdeal.main_arg4) : Cert.KernelIdeal.S96.Idx → EReal) i = (r : EReal)) := by
  have h := congrFun (hpre c) ValueIdx.ix0
  dsimp only [Cert.Pre_finite_inputs.fn, Cert.Pre_finite_inputs.fn_part1] at h
  -- the conjunction of the five all-reductions, nested to the left
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨all_real _ _ _ _ h0, all_real _ _ _ _ h1, all_real _ _ _ _ h2, all_real _ _ _ _ h3,
    all_real _ _ _ _ h4⟩

end Cert.KernelIdeal.Finite
-- ==== Proof.KerRun.lean ====
/-
  The run of the kernel program with its result buffers read.

  From any memory with zero counters, every weakly fair execution of @main on the TensorCores ends, nothing
  faulting, and in every final state each of the three result buffers holds the contents of the last segment
  boundary (the fold `Gen.W3` of the launch memory through the two regions and the host tail), while each of the
  five argument buffers holds what it held at launch. The run is the library's launch over the program's three
  segments; its last thread state holds every unscoped buffer at the last boundary's contents, and reading that
  state against the final memory gives the eight equations: a result directly, an argument through the fold back
  to the launch memory.
-/
import proofs.«114494_g2000605969816161_pallasbulk_1287_5_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- At the compiled mesh, from any memory with zero counters, every weakly fair execution of @main on the
    TensorCores terminates without a fault, and in every final state the three result buffers hold the last
    boundary's contents `Gen.W3` and the five argument buffers hold what they held at launch. -/
theorem run_read : θ_run defs (onTc (τ := τ) (main (F := F))) ⟨m, fun _ => 0, ρ⟩ (fun r => ∀ c : Dev nD,
      r.2.mem ((c.tc : Thread nD τ).loc main_v0_0) = Gen.W3 m ρ c (Proc.devRef .tc main_v0_0)
      ∧ r.2.mem ((c.tc : Thread nD τ).loc main_v0_1) = Gen.W3 m ρ c (Proc.devRef .tc main_v0_1)
      ∧ r.2.mem ((c.tc : Thread nD τ).loc main_v0_2) = Gen.W3 m ρ c (Proc.devRef .tc main_v0_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0_0 (by decide)),
       h c _ (mem_uc main_v0_1 (by decide)),
       h c _ (mem_uc main_v0_2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.KerRun

end
-- ==== Proof.MainBody.lean ====
/-
  The main region's body, entry by entry. A block is one batch element: its [512, 321] slab of the input (time by
  channel). For channel k the body takes the mean and the variance of the 512 time steps (two sums over the time
  axis, each times 1/512), the inverse deviation (var + ε)^(-1/2) and the deviation (var + ε) times it; multiplies
  the [128, 512] folded head weight with the slab (a sum over time); and combines, per row n and channel k,
      ((W·X) · a + r · (b - a · mean) + (h - b)) · (std / (w + ε²)) + mean,   a = w · istd,
  where r and h are the two columns of the [128, 2] array (row sums and head bias). Rows 0 … 95 are kept.
  Each stage below is read at explicit coordinates; the last theorem composes them.
-/
import proofs.«114494_g2000605969816161_pallasbulk_1287_5_alg».proof.Proof.Gen.KernelIdeal.Frame
import proofs.«114494_g2000605969816161_pallasbulk_1287_5_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MainBody

open Idealize.ShloMosaic Idealize.ShloMosaic.ValueIdx Cert.KernelIdeal Cert.KernelIdeal.Gen Cert.NormHead

variable (v0 : Vec Ideal S1x512x321 .f32) (v22 v24 : Vec Ideal S321 .f32) (v19 : Vec Ideal S128x512 .f32)
  (v30 v32 : Vec Ideal S128x1 .f32)

/-- The series of channel k in a block: its 512 time steps. -/
abbrev ser (v0 : Vec Ideal S1x512x321 .f32) (k : Fin 321) : Fin 512 → EReal := fun s => v0 (ix3 (0 : Fin 1) s k)

theorem pay2_apply (s : Fin 512) (k : Fin 321) : k1_pay2 (F := Ideal) v0 (ix2 s k) = ser v0 k s :=
  shapeCast_1ab_ab_apply v0 _ s k

/-- A sum over the time axis of a [512, 321] block, at channel k. -/
theorem colSum_apply (x : FVec Ideal S512x321 .f32) (k : Fin 321) :
    multiReduction (F := Ideal) .add [0] S321 x 0x00000000#32 reduces_S512x321_S321 (.inl rfl) rfl (ix1 k)
      = ∑ s : Fin 512, x (ix2 s k) := by
  refine (Ideal.multiReduction_add_single x 0x00000000#32 reduces_S512x321_S321 (.inl rfl) rfl (ix1 k)).trans ?_
  refine Finset.sum_congr rfl fun s _ => congrArg x ?_
  funext a
  apply Fin.ext
  match a with
  | ⟨0, _⟩ => rfl
  | ⟨1, _⟩ => rfl

theorem pay3_apply (u : Fin 1) (k : Fin 321) : k1_pay3 (F := Ideal) v0 (ix2 u k) = mean (ser v0 k) := by
  unfold k1_pay3
  dsimp only
  rw [mulf_apply, broadcast_apply, shapeCast_a_1a_apply, colSum_apply]
  simp only [pay2_apply]
  rfl

theorem pay4_apply (u : Fin 1) (k : Fin 321) : k1_pay4 (F := Ideal) v0 (ix2 u k) = var (ser v0 k) := by
  unfold k1_pay4
  dsimp only
  rw [mulf_apply, broadcast_apply, shapeCast_a_1a_apply, colSum_apply]
  simp only [mulf_apply, subf_apply, pay2_apply, broadcastTo_1b_ab_apply, pay3_apply]
  rfl

theorem pay5_apply (u : Fin 1) (k : Fin 321) : k1_pay5 (F := Ideal) v0 (ix2 u k) = istd (ser v0 k) := by
  unfold k1_pay5
  show Ideal.rsqrt (addf (k1_pay4 (F := Ideal) v0) _ (ix2 u k)) = _
  rw [addf_apply, broadcast_apply, pay4_apply]
  rfl

theorem pay6_apply (u : Fin 1) (k : Fin 321) : k1_pay6 (F := Ideal) v22 (ix2 u k) = v22 (ix1 k) :=
  shapeCast_a_1a_apply v22 _ u k

theorem pay7_apply (u : Fin 1) (k : Fin 321) : k1_pay7 (F := Ideal) v24 (ix2 u k) = v24 (ix1 k) :=
  shapeCast_a_1a_apply v24 _ u k

theorem pay8_apply (u : Fin 1) (k : Fin 321) :
    k1_pay8 (F := Ideal) v0 v22 (ix2 u k) = v22 (ix1 k) * istd (ser v0 k) := by
  unfold k1_pay8
  rw [mulf_apply, pay6_apply, pay5_apply]

theorem pay9_apply (u : Fin 1) (k : Fin 321) :
    k1_pay9 (F := Ideal) v0 v22 (ix2 u k) = Ideal.div (std (ser v0 k)) (v22 (ix1 k) + epsSq) := by
  unfold k1_pay9
  rw [divf_apply, mulf_apply, addf_apply, addf_apply, broadcast_apply, broadcast_apply, pay4_apply, pay5_apply, pay6_apply]
  rfl

theorem pay10_apply (n : Fin 128) (u : Fin 1) : k1_pay10 (F := Ideal) v30 (ix2 n u) = v30 (ix2 n u) := by
  unfold k1_pay10
  rw [shapeCast_self]

/-- A [128, 1] column broadcast along the channels reads its one entry of the row. -/
theorem colBroadcast_apply (v : FVec Ideal S128x1 .f32) (n : Fin 128) (k : Fin 321) :
    broadcastTo S128x321 v broadcasts_S128x1_S128x321 (ix2 n k) = v (ix2 n (0 : Fin 1)) := by
  refine broadcastTo_apply v broadcasts_S128x1_S128x321 (ix2 n k) (ix2 n (0 : Fin 1)) fun ax => ?_
  match ax with
  | ⟨0, _⟩ => rfl
  | ⟨1, _⟩ => rfl

/-- A [1, 321] row broadcast along the 128 rows reads its entry of the channel. -/
theorem rowBroadcast_apply (v : FVec Ideal S1x321 .f32) (n : Fin 128) (k : Fin 321) :
    broadcastTo S128x321 v broadcasts_S1x321_S128x321 (ix2 n k) = v (ix2 (0 : Fin 1) k) :=
  broadcastTo_1b_ab_apply v _ n k

theorem pay12_apply (n : Fin 128) (k : Fin 321) : k1_pay12 (F := Ideal) v32 (ix2 n k) = v32 (ix2 n (0 : Fin 1)) := by
  unfold k1_pay12
  rw [colBroadcast_apply, shapeCast_self]

theorem pay13_apply (n : Fin 128) (k : Fin 321) :
    k1_pay13 (F := Ideal) v0 v22 v24 (ix2 n k) = v24 (ix1 k) - v22 (ix1 k) * istd (ser v0 k) * mean (ser v0 k) := by
  unfold k1_pay13
  rw [rowBroadcast_apply, subf_apply, mulf_apply, pay7_apply, pay8_apply, pay3_apply]

/-- The dimension numbers of the head product: rows × time times time × channels. -/
abbrev headDot := dot_S128x512_S512x321_S128x321_1_0_0_1_n_n

/-- The matrix product of a [128, 512] weight with the [512, 321] block, at row n and channel k. -/
theorem headProduct_apply (a : FVec Ideal S128x512 .f32) (x : FVec Ideal S512x321 .f32) (n : Fin 128) (k : Fin 321) :
    matmul (F := Ideal) headDot none a x (constant S128x321 .f32 0x00000000#32) (ix2 n k)
      = ∑ s : Fin 512, a (ix2 n s) * x (ix2 s k) := by
  refine (Ideal.matmul_constant_zero_apply headDot none a x (ix2 n k)).trans ?_
  rw [← Equiv.sum_comp (contrEquiv1 headDot 512 rfl rfl).symm]
  refine Finset.sum_congr rfl fun s _ => ?_
  have hl : headDot.lhsIdx (ix2 n k)
      ((contrEquiv1 headDot 512 rfl rfl).symm s) = ix2 n s := by
    funext ax
    apply Fin.ext
    match ax with
    | ⟨0, _⟩ => rfl
    | ⟨1, _⟩ =>
      exact (DotDims.lhsIdx_val_of_single headDot (cl := (1 : Fin 2)) rfl _ _).trans (contrEquiv1_symm_val headDot 512 rfl rfl s)
  have hr : headDot.rhsIdx (ix2 n k)
      ((contrEquiv1 headDot 512 rfl rfl).symm s) = ix2 s k := by
    funext ax
    apply Fin.ext
    match ax with
    | ⟨0, _⟩ =>
      exact (DotDims.rhsIdx_val_of_single headDot (cr := (0 : Fin 2)) rfl _ _).trans (contrEquiv1_symm_val headDot 512 rfl rfl s)
    | ⟨1, _⟩ => rfl
  rw [hl, hr]

theorem pay11_apply (n : Fin 128) (k : Fin 321) :
    k1_pay11 (F := Ideal) v0 v19 v22 (ix2 n k)
      = (∑ s : Fin 512, v19 (ix2 n s) * ser v0 k s) * (v22 (ix1 k) * istd (ser v0 k)) := by
  unfold k1_pay11
  rw [mulf_apply, rowBroadcast_apply, pay8_apply, headProduct_apply, shapeCast_self]
  simp only [pay2_apply]

/-- The last stage: combine the pieces, keep the first 96 rows, add the unit batch axis. -/
theorem pay1_apply (v5 v25 v29 : FVec Ideal S1x321 .f32) (v31 : FVec Ideal S128x1 .f32) (v35 v38 v39 : FVec Ideal S128x321 .f32)
    (u : Fin 1) (n : Fin 96) (k : Fin 321) :
    k1_pay1 (F := Ideal) v5 v25 v29 v31 v35 v38 v39 (ix3 u n k)
      = ((v35 (ix2 ⟨n.val, by omega⟩ k) + v38 (ix2 ⟨n.val, by omega⟩ k) * v39 (ix2 ⟨n.val, by omega⟩ k))
          + (v31 (ix2 ⟨n.val, by omega⟩ (0 : Fin 1)) - v25 (ix2 (0 : Fin 1) k))) * v29 (ix2 (0 : Fin 1) k)
        + v5 (ix2 (0 : Fin 1) k) := by
  unfold k1_pay1
  rw [shapeCast_ab_1ab_apply, slice2_axis0_apply 0 _ _ n k ⟨n.val, by omega⟩ (by simp)]
  simp only [addf_apply, mulf_apply, subf_apply, rowBroadcast_apply, colBroadcast_apply]

theorem off3_zero : (![0, 0, 0] : Fin 3 → Nat) = fun _ => 0 := funext fun a => by fin_cases a <;> rfl
theorem off2_zero : (![0, 0] : Fin 2 → Nat) = fun _ => 0 := funext fun a => by fin_cases a <;> rfl
theorem off1_zero : (![0] : Fin 1 → Nat) = fun _ => 0 := funext fun a => by fin_cases a <;> rfl

/-- The first column of the two-column array, loaded through its one-column rectangle. -/
theorem ld_col0 (x4 : Vec Ideal S128x2 .f32) (n : Fin 128) (u : Fin 1) :
    View.ld x4 r1_3 (ix2 n u) = x4 (ix2 n (0 : Fin 2)) := by
  show x4 (r1_3.emb (ix2 n u)) = _
  refine congrArg x4 ?_
  funext a
  apply Fin.ext
  match a with
  | ⟨0, _⟩ => show 0 + 1 * n.val = n.val; omega
  | ⟨1, _⟩ => show 0 + 1 * u.val = 0; omega

/-- The second column likewise. -/
theorem ld_col1 (x4 : Vec Ideal S128x2 .f32) (n : Fin 128) (u : Fin 1) :
    View.ld x4 r1_4 (ix2 n u) = x4 (ix2 n (1 : Fin 2)) := by
  show x4 (r1_4.emb (ix2 n u)) = _
  refine congrArg x4 ?_
  funext a
  apply Fin.ext
  match a with
  | ⟨0, _⟩ => show 0 + 1 * n.val = n.val; omega
  | ⟨1, _⟩ => show 1 + 1 * u.val = 1; omega

/-- What the body leaves in the output block, entry by entry, from the five input blocks: with X the series of
    channel k, W row n of the folded weight, the second column of the two-column array in the place of the row sum
    of W and its first column in the place of the head bias, the entry is the kernel's arrangement. -/
theorem body_apply (x0 : Vec Ideal S1x512x321 .f32) (x1 x2 : Vec Ideal S321 .f32) (x3 : Vec Ideal S128x512 .f32)
    (x4 : Vec Ideal S128x2 .f32) (u : Fin 1) (n : Fin 96) (k : Fin 321) :
    out1_5 (F := Ideal) x0 x1 x2 x3 x4 (ix3 u n k)
      = (((∑ s : Fin 512, x3 (ix2 ⟨n.val, by omega⟩ s) * ser x0 k s) * (x1 (ix1 k) * istd (ser x0 k))
            + x4 (ix2 ⟨n.val, by omega⟩ (1 : Fin 2)) * (x2 (ix1 k) - x1 (ix1 k) * istd (ser x0 k) * mean (ser x0 k)))
          + (x4 (ix2 ⟨n.val, by omega⟩ (0 : Fin 2)) - x2 (ix1 k)))
        * Ideal.div (std (ser x0 k)) (x1 (ix1 k) + epsSq) + mean (ser x0 k) := by
  unfold out1_5
  rw [View.canon_unit_zero off3_zero]
  simp only [View.ld_unit_zero (S := S1x512x321) off3_zero, View.ld_unit_zero (S := S321) off1_zero,
    View.ld_unit_zero (S := S128x512) off2_zero]
  rw [pay1_apply, pay11_apply, pay12_apply, pay13_apply, pay10_apply, pay7_apply, pay9_apply, pay3_apply,
    ld_col0, ld_col1]

end Cert.KernelIdeal.MainBody

end
-- ==== Proof.MainArray.lean ====
/-
  From blocks to the array, for the main region. The grid has 64 points, one per batch element: point t reads
  block (t, 0, 0) of the input (its [1, 512, 321] slab), the whole of the four small arrays, and writes block
  (t, 0, 0) of the [64, 96, 321] result. So the result array at (b, n, k) is what the body leaves at (0, n, k) from
  batch element b's slab: the blocks tile the array, one point per batch element.
-/
import proofs.«114494_g2000605969816161_pallasbulk_1287_5_alg».proof.Proof.Gen.KernelIdeal.Frame
import Idealize.ShloMosaic.Lib.Pipeline.Value
import Idealize.ShloMosaic.Lib.ValueIdx

set_option maxRecDepth 16384

noncomputable section

namespace Cert.KernelIdeal.MainArray

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b)) (c : Dev nD)

/-- The printed index maps over the grid: the input slab and the result block move with the point along the batch
    axis and sit at 0 on the others; the four small arrays sit at block 0. -/
theorem index_facts : ∀ t : Fin cfg1.N,
    win1_0.index t (0 : Fin 3) = t.val ∧ win1_0.index t (1 : Fin 3) = 0 ∧ win1_0.index t (2 : Fin 3) = 0
    ∧ win1_5.index t (0 : Fin 3) = t.val ∧ win1_5.index t (1 : Fin 3) = 0 ∧ win1_5.index t (2 : Fin 3) = 0
    ∧ win1_1.index t (0 : Fin 1) = 0 ∧ win1_2.index t (0 : Fin 1) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The slab of batch element b as a block: entry (u, s, k) is the input at (b, s, k). -/
def slab (b : Fin 64) : Vec Ideal S1x512x321 .f32 := fun y => V c main_arg0 (ix3 b (y 1) (y 2))

/-- The result array, entry by entry: the body's output at (0, n, k) from batch element b's slab. -/
def G : S64x96x321.Idx → EReal := fun i =>
  out1_5 (F := Ideal) (slab V c (i 0)) (V c main_arg1) (V c main_arg2) (V c main_call0_v0_0) (V c main_call0_v0_1)
    (ix3 (0 : Fin 1) (i 1) (i 2))

theorem blk1 (t : Fin cfg1.N) : iblk1 V c 1 t = V c main_arg1 := by
  obtain ⟨-, -, -, -, -, -, e, -⟩ := index_facts t
  funext y
  show V c main_arg1 (((cfg1.win 1).blk t).view.emb y) = V c main_arg1 y
  refine congrArg (V c main_arg1) ?_
  funext a; apply Fin.ext
  match a with
  | ⟨0, _⟩ => show win1_1.index t (0 : Fin 1) * 321 + 1 * (y 0).val = (y 0).val; omega

theorem blk2 (t : Fin cfg1.N) : iblk1 V c 2 t = V c main_arg2 := by
  obtain ⟨-, -, -, -, -, -, -, e, -⟩ := index_facts t
  funext y
  show V c main_arg2 (((cfg1.win 2).blk t).view.emb y) = V c main_arg2 y
  refine congrArg (V c main_arg2) ?_
  funext a; apply Fin.ext
  match a with
  | ⟨0, _⟩ => show win1_2.index t (0 : Fin 1) * 321 + 1 * (y 0).val = (y 0).val; omega

theorem blk3 (t : Fin cfg1.N) : iblk1 V c 3 t = V c main_call0_v0_0 := by
  obtain ⟨-, -, -, -, -, -, -, -, e0, e1, -⟩ := index_facts t
  funext y
  show V c main_call0_v0_0 (((cfg1.win 3).blk t).view.emb y) = V c main_call0_v0_0 y
  refine congrArg (V c main_call0_v0_0) ?_
  funext a; apply Fin.ext
  match a with
  | ⟨0, _⟩ => show win1_3.index t (0 : Fin 2) * 128 + 1 * (y 0).val = (y 0).val; omega
  | ⟨1, _⟩ => show win1_3.index t (1 : Fin 2) * 512 + 1 * (y 1).val = (y 1).val; omega

theorem blk4 (t : Fin cfg1.N) : iblk1 V c 4 t = V c main_call0_v0_1 := by
  obtain ⟨-, -, -, -, -, -, -, -, -, -, e0, e1⟩ := index_facts t
  funext y
  show V c main_call0_v0_1 (((cfg1.win 4).blk t).view.emb y) = V c main_call0_v0_1 y
  refine congrArg (V c main_call0_v0_1) ?_
  funext a; apply Fin.ext
  match a with
  | ⟨0, _⟩ => show win1_4.index t (0 : Fin 2) * 128 + 1 * (y 0).val = (y 0).val; omega
  | ⟨1, _⟩ => show win1_4.index t (1 : Fin 2) * 2 + 1 * (y 1).val = (y 1).val; omega

theorem blk0 (t : Fin cfg1.N) (b : Fin 64) (hb : b.val = t.val) : iblk1 V c 0 t = slab V c b := by
  obtain ⟨e0, e1, e2, -⟩ := index_facts t
  funext y
  show V c main_arg0 (((cfg1.win 0).blk t).view.emb y) = V c main_arg0 (ix3 b (y 1) (y 2))
  refine congrArg (V c main_arg0) ?_
  funext a; apply Fin.ext
  match a with
  | ⟨0, _⟩ => show win1_0.index t (0 : Fin 3) * 1 + 1 * (y 0).val = b.val; have hy : (y 0).val < 1 := (y 0).isLt; omega
  | ⟨1, _⟩ => show win1_0.index t (1 : Fin 3) * 512 + 1 * (y 1).val = (y 1).val; omega
  | ⟨2, _⟩ => show win1_0.index t (2 : Fin 3) * 321 + 1 * (y 2).val = (y 2).val; omega

/-- A point is a batch element: the grid has 64 points. -/
theorem point_lt (t : Fin cfg1.N) : t.val < 64 := lt_of_lt_of_eq t.isLt N_1

/-- Where an entry of point t's result block sits in the array: batch element t, same row and channel. -/
theorem emb_result (t : Fin cfg1.N) (j : ((cfg1.win 5).xblock (grid1.coords t)).Idx) :
    ((cfg1.win 5).blk t).view.emb j = ix3 (⟨t.val, point_lt t⟩ : Fin 64) (j 1) (j 2) := by
  obtain ⟨-, -, -, e0, e1, e2, -⟩ := index_facts t
  funext a; apply Fin.ext
  match a with
  | ⟨0, _⟩ => show win1_5.index t (0 : Fin 3) * 1 + 1 * (j 0).val = t.val; have hj : (j 0).val < 1 := (j 0).isLt; omega
  | ⟨1, _⟩ => show win1_5.index t (1 : Fin 3) * 96 + 1 * (j 1).val = (j 1).val; omega
  | ⟨2, _⟩ => show win1_5.index t (2 : Fin 3) * 321 + 1 * (j 2).val = (j 2).val; omega

/-- The body's output depends only on its five blocks and the index. -/
theorem out_congr {x0 x0' : Vec Ideal S1x512x321 .f32} {x1 x1' x2 x2' : Vec Ideal S321 .f32}
    {x3 x3' : Vec Ideal S128x512 .f32} {x4 x4' : Vec Ideal S128x2 .f32} {j j' : S1x96x321.Idx}
    (h0 : x0 = x0') (h1 : x1 = x1') (h2 : x2 = x2') (h3 : x3 = x3') (h4 : x4 = x4') (hj : j = j') :
    out1_5 (F := Ideal) x0 x1 x2 x3 x4 j = out1_5 (F := Ideal) x0' x1' x2' x3' x4' j' := by
  subst h0 h1 h2 h3 h4 hj; rfl

/-- A block that agrees entry by entry with a function of the array index, read where the block sits, is that
    function's block. -/
theorem block_of_entries (t : Fin cfg1.N) (o : Vec Ideal S1x96x321 .f32) (Gf : S64x96x321.Idx → EReal)
    (h : ∀ j : ((cfg1.win 5).xblock (grid1.coords t)).Idx, o j = Gf (((cfg1.win 5).blk t).view.emb j)) :
    (cfg1.win 5).cut (grid1.coords t) o = ((cfg1.win 5).blk t).view.read (Elt Ideal) Gf := by
  funext j
  exact h j

/-- What point t writes back is block t of the result array. -/
theorem flushed_eq (t : Fin cfg1.N) :
    (dat1 V c).flushed 5 t = ((cfg1.win 5).blk t).view.read (Elt Ideal) (G V c) := by
  show (cfg1.win 5).cut (grid1.coords t) ((dat1 V c).after 5 t) = _
  rw [after1_5]
  refine block_of_entries t _ (G V c) fun j => ?_
  rw [emb_result t j]
  unfold G
  refine out_congr (blk0 V c t ⟨t.val, point_lt t⟩ rfl) (blk1 V c t) (blk2 V c t) (blk3 V c t) (blk4 V c t) ?_
  funext a; apply Fin.ext
  match a with
  | ⟨0, _⟩ => show (j 0).val = 0; have hj : (j 0).val < 1 := (j 0).isLt; omega
  | ⟨1, _⟩ => rfl
  | ⟨2, _⟩ => rfl

/-- An index of the result array is in point t's block iff each coordinate is in the block's range on its axis. -/
theorem mem_blk (t : Fin cfg1.N) (i : S64x96x321.Idx) :
    i ∈ ((cfg1.win 5).blk t).view.set ↔ ∀ a : Fin 3, win1_5.index t a * S1x96x321.size a ≤ (i a).val
      ∧ (i a).val < win1_5.index t a * S1x96x321.size a + S1x96x321.size a := by
  show i ∈ ((View.whole main_v0_0).slice (win1_5.rect t)).set ↔ _
  rw [View.set_slice_whole, Rect.mem_set_unit]
  exact Iff.rfl

/-- Every index is in the block of the point of its batch coordinate. -/
theorem cover (i : S64x96x321.Idx) :
    ∃ t : Fin cfg1.N, (cfg1.win 5).flush t = true ∧ i ∈ ((cfg1.win 5).blk t).view.set := by
  have hi0 : (i 0).val < 64 := (i 0).isLt
  have hi1 : (i 1).val < 96 := (i 1).isLt
  have hi2 : (i 2).val < 321 := (i 2).isLt
  refine ⟨⟨(i 0).val, by rw [show cfg1.N = 64 from N_1]; exact hi0⟩, flush1_5 _, ?_⟩
  rw [mem_blk]
  obtain ⟨-, -, -, e0, e1, e2, -⟩ := index_facts ⟨(i 0).val, by rw [show cfg1.N = 64 from N_1]; exact hi0⟩
  intro a
  match a with
  | ⟨0, _⟩ =>
    show win1_5.index _ (0 : Fin 3) * 1 ≤ (i 0).val ∧ (i 0).val < win1_5.index _ (0 : Fin 3) * 1 + 1
    rw [e0]; constructor <;> simp
  | ⟨1, _⟩ =>
    show win1_5.index _ (1 : Fin 3) * 96 ≤ (i 1).val ∧ (i 1).val < win1_5.index _ (1 : Fin 3) * 96 + 96
    rw [e1]; omega
  | ⟨2, _⟩ =>
    show win1_5.index _ (2 : Fin 3) * 321 ≤ (i 2).val ∧ (i 2).val < win1_5.index _ (2 : Fin 3) * 321 + 321
    rw [e2]; omega

/-- The result array after the region. -/
theorem result_array : (dat1 V c).arrAt 5 cfg1.N = G V c :=
  (dat1 V c).arrAt_eq_of_cover 5 (G V c) (fun t _ => flushed_eq V c t) (cover)

end Cert.KernelIdeal.MainArray

end
-- ==== Proof.PrepValue.lean ====
/-
  The first region's body, entry by entry. It reshapes the [1008, 96] head weight to 63 patches of 16 rows, takes
  the first and the second half of every patch as two [504, 96] slabs, pads the first with 8 zero rows below and the
  second with 8 zero rows above, and adds them: row s of the sum is the head weight folded onto time position s
  (the two-slab form foldK). Transposed and padded to 128 rows it is the first output; the second output holds, per
  row n < 96, the head bias in column 0 and the sum over the 512 positions of row n in column 1.
-/
import proofs.«114494_g2000605969816161_pallasbulk_1287_5_alg».proof.Proof.Gen.KernelIdeal.Frame
import proofs.«114494_g2000605969816161_pallasbulk_1287_5_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PrepValue

open Cert.KernelIdeal Cert.NormHead Idealize.ShloMosaic Idealize.ShloMosaic.ValueIdx

/-- The zero offsets of a whole rank-2 rectangle, as a constant function. -/
theorem off2_zero : (![0, 0] : Fin 2 → Nat) = fun _ => 0 := funext fun a => by fin_cases a <;> rfl

/-- The zero offset of a whole rank-1 rectangle, as a constant function. -/
theorem off1_zero : (![0] : Fin 1 → Nat) = fun _ => 0 := funext fun a => by fin_cases a; rfl

/-- The integer zero converted to a float is the extended real zero. -/
theorem zero_eq : Scalar.sitofp (F := Ideal) .f32 0#32 = (0 : EReal) := by
  rw [Ideal.scalar_sitofp_def]; simp

section Layout
variable {α : Type}

/-- The first halves of the 63 patches, flattened: row r of the slab is row 16·(r/8) + r%8 of the weight. -/
theorem slabLo_apply (X : S1008x96.Idx → α) (h1 : S1008x96.ShapeCasts S63x16x96)
    (h2 : S63x16x96.Slices ![0, 0, 0] S63x8x96) (h3 : S63x8x96.ShapeCasts S504x96) (r : Fin 504) (n : Fin 96) :
    shapeCast S504x96 (extractStridedSlice S63x8x96 ![0, 0, 0] (shapeCast S63x16x96 X h1) h2) h3 (ix2 r n)
      = X (ix2 (⟨16 * (r.val / 8) + r.val % 8, by omega⟩ : Fin 1008) n) := by
  refine (shapeCast_apply _ h3 (ix2 r n)
    (ix3 (⟨r.val / 8, by omega⟩ : Fin 63) (⟨r.val % 8, by omega⟩ : Fin 8) n) ?_).trans ?_
  · rw [Shape.rowMajor_val_three, Shape.rowMajor_val_two]
    show (r.val / 8 * 8 + r.val % 8) * 96 + n.val = r.val * 96 + n.val
    omega
  refine (slice3_axis1_apply 0 _ h2 (⟨r.val / 8, by omega⟩ : Fin 63) (⟨r.val % 8, by omega⟩ : Fin 8) n
    (⟨r.val % 8, by omega⟩ : Fin 16) (by show r.val % 8 = 0 + r.val % 8; omega)).trans ?_
  refine shapeCast_apply X h1 _ _ ?_
  rw [Shape.rowMajor_val_three, Shape.rowMajor_val_two]
  show (16 * (r.val / 8) + r.val % 8) * 96 + n.val = (r.val / 8 * 16 + r.val % 8) * 96 + n.val
  omega

/-- The second halves of the 63 patches, flattened: row r of the slab is row 16·(r/8) + 8 + r%8 of the weight. -/
theorem slabHi_apply (X : S1008x96.Idx → α) (h1 : S1008x96.ShapeCasts S63x16x96)
    (h2 : S63x16x96.Slices ![0, 8, 0] S63x8x96) (h3 : S63x8x96.ShapeCasts S504x96) (r : Fin 504) (n : Fin 96) :
    shapeCast S504x96 (extractStridedSlice S63x8x96 ![0, 8, 0] (shapeCast S63x16x96 X h1) h2) h3 (ix2 r n)
      = X (ix2 (⟨16 * (r.val / 8) + 8 + r.val % 8, by omega⟩ : Fin 1008) n) := by
  refine (shapeCast_apply _ h3 (ix2 r n)
    (ix3 (⟨r.val / 8, by omega⟩ : Fin 63) (⟨r.val % 8, by omega⟩ : Fin 8) n) ?_).trans ?_
  · rw [Shape.rowMajor_val_three, Shape.rowMajor_val_two]
    show (r.val / 8 * 8 + r.val % 8) * 96 + n.val = r.val * 96 + n.val
    omega
  refine (slice3_axis1_apply 8 _ h2 (⟨r.val / 8, by omega⟩ : Fin 63) (⟨r.val % 8, by omega⟩ : Fin 8) n
    (⟨8 + r.val % 8, by omega⟩ : Fin 16) rfl).trans ?_
  refine shapeCast_apply X h1 _ _ ?_
  rw [Shape.rowMajor_val_three, Shape.rowMajor_val_two]
  show (16 * (r.val / 8) + 8 + r.val % 8) * 96 + n.val = (r.val / 8 * 16 + (8 + r.val % 8)) * 96 + n.val
  omega

end Layout

section Pad
variable {α : Type}

/-- A slab of 504 rows over 8 rows of a constant: the slab where it reaches, the constant below. -/
theorem padBelow_apply (A : S504x96.Idx → α) (z : α) (h : Shape.Concatenates [S504x96, S8x96] S512x96 0)
    (s : Fin 512) (n : Fin 96) :
    concatenate S512x96 0 [⟨S504x96, A⟩, ⟨S8x96, broadcast S8x96 z⟩] h (ix2 s n)
      = if hs : s.val < 504 then A (ix2 (⟨s.val, hs⟩ : Fin 504) n) else z := by
  by_cases hs : s.val < 504
  · rw [dif_pos hs]
    exact concatenate_pair_apply_left _ A _ h (ix2 s n) rfl (ix2 (⟨s.val, hs⟩ : Fin 504) n)
      (fun b => match b with | ⟨0, _⟩ => rfl | ⟨1, _⟩ => rfl)
  · rw [dif_neg hs]
    exact concatenate_pair_apply_right _ A _ h (ix2 s n) rfl rfl (ix2 (⟨s.val - 504, by omega⟩ : Fin 8) n)
      (fun b hb => match b, hb with | ⟨0, _⟩, hb => absurd rfl hb | ⟨1, _⟩, _ => rfl)
      (by show s.val - 504 + 504 = s.val; omega)

/-- 8 rows of a constant over a slab of 504 rows: the constant above, the slab shifted down by 8. -/
theorem padAbove_apply (B : S504x96.Idx → α) (z : α) (h : Shape.Concatenates [S8x96, S504x96] S512x96 0)
    (s : Fin 512) (n : Fin 96) :
    concatenate S512x96 0 [⟨S8x96, broadcast S8x96 z⟩, ⟨S504x96, B⟩] h (ix2 s n)
      = if hs : s.val < 8 then z else B (ix2 (⟨s.val - 8, by omega⟩ : Fin 504) n) := by
  by_cases hs : s.val < 8
  · rw [dif_pos hs]
    exact concatenate_pair_apply_left _ _ B h (ix2 s n) rfl (ix2 (⟨s.val, hs⟩ : Fin 8) n)
      (fun b => match b with | ⟨0, _⟩ => rfl | ⟨1, _⟩ => rfl)
  · rw [dif_neg hs]
    exact concatenate_pair_apply_right _ _ B h (ix2 s n) rfl rfl (ix2 (⟨s.val - 8, by omega⟩ : Fin 504) n)
      (fun b hb => match b, hb with | ⟨0, _⟩, hb => absurd rfl hb | ⟨1, _⟩, _ => rfl)
      (by show s.val - 8 + 8 = s.val; omega)

end Pad

/-- The folded weight, transposed: entry (n, s) is the two-slab fold of column n of the head weight at position s. -/
theorem pay1_apply (x0 : Vec Ideal S1008x96 .f32) (n : Fin 96) (s : Fin 512) :
    Gen.k0_pay1 (F := Ideal) x0 (ix2 n s) = foldK (fun q => x0 (ix2 q n)) s := by
  unfold Gen.k0_pay1
  refine (transpose_ix2_apply _ _ n s).trans ?_
  refine (addf_apply _ _ _).trans ?_
  refine (congrArg₂ (· + ·) (padBelow_apply _ _ _ s n) (padAbove_apply _ _ _ s n)).trans ?_
  unfold foldK
  refine congrArg₂ (· + ·) ?_ ?_
  · by_cases h : s.val < 504
    · rw [dif_pos h, dif_pos h]; exact slabLo_apply x0 _ _ _ (⟨s.val, h⟩ : Fin 504) n
    · rw [dif_neg h, dif_neg h]; exact zero_eq
  · by_cases h : s.val < 8
    · rw [dif_pos h, dif_pos h]; exact zero_eq
    · rw [dif_neg h, dif_neg h]; exact slabHi_apply x0 _ _ _ (⟨s.val - 8, by omega⟩ : Fin 504) n

/-- Window 2 after the body: row n < 96, position s, holds the folded weight of column n at s. -/
theorem folded_apply (x0 : Vec Ideal S1008x96 .f32) (x1 : Vec Ideal S96 .f32) (n : Fin 128) (s : Fin 512) (hn : n.val < 96) :
    Gen.out0_2 (F := Ideal) x0 x1 (ix2 n s) = foldK (fun q => x0 (ix2 q ⟨n.val, hn⟩)) s := by
  unfold Gen.out0_2
  rw [View.canon_unit_zero off2_zero]
  simp only [View.ld_unit_zero (S := S1008x96) off2_zero]
  unfold Gen.k0_pay2
  refine (concatenate_pair_apply_left (s₁ := S96x512) (s₂ := S32x512) _ _ _ _ (ix2 n s) rfl (ix2 (⟨n.val, hn⟩ : Fin 96) s)
    (fun b => match b with | ⟨0, _⟩ => rfl | ⟨1, _⟩ => rfl)).trans ?_
  exact pay1_apply x0 ⟨n.val, hn⟩ s

/-- The lane sum of a [96, 512] array: row n of the result is the sum over the 512 positions of row n. -/
theorem laneSum_apply (src : FVec Ideal S96x512 .f32) (h : S96x512.Reduces [1] S96) (hφ : FKind.Formats .f32)
    (hacc : (0x00000000#32 : BitVec 32) = FKind.add.neutral .f32 hφ) (n : Fin 96) :
    multiReduction (F := Ideal) .add [1] S96 src 0x00000000#32 h hφ hacc (ix1 n) = ∑ s : Fin 512, src (ix2 n s) := by
  refine (Ideal.multiReduction_add_single src 0x00000000#32 h hφ hacc (ix1 n)).trans ?_
  show ∑ k : Fin 512, src (h.lift (ix1 n) k) = _
  refine Finset.sum_congr rfl fun k _ => congrArg src ?_
  funext a
  match a with
  | ⟨0, _⟩ => exact Fin.ext rfl
  | ⟨1, _⟩ => exact Fin.ext rfl

section Columns
variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Two columns side by side: column 0 is the first. -/
theorem pairCols_left (P Q : S96x1.Idx → α) (h : Shape.Concatenates [S96x1, S96x1] S96x2 1) (n : Fin 96) :
    concatenate S96x2 1 [⟨S96x1, P⟩, ⟨S96x1, Q⟩] h (ix2 n (0 : Fin 2)) = P (ix2 n (0 : Fin 1)) :=
  concatenate_pair_apply_left (s₁ := S96x1) (s₂ := S96x1) _ P Q h (ix2 n (0 : Fin 2)) rfl (ix2 n (0 : Fin 1))
    (fun b => match b with | ⟨0, _⟩ => rfl | ⟨1, _⟩ => rfl)

/-- Two columns side by side: column 1 is the second. -/
theorem pairCols_right (P Q : S96x1.Idx → α) (h : Shape.Concatenates [S96x1, S96x1] S96x2 1) (n : Fin 96) :
    concatenate S96x2 1 [⟨S96x1, P⟩, ⟨S96x1, Q⟩] h (ix2 n (1 : Fin 2)) = Q (ix2 n (0 : Fin 1)) :=
  concatenate_pair_apply_right (s₁ := S96x1) (s₂ := S96x1) _ P Q h (ix2 n (1 : Fin 2)) rfl rfl (ix2 n (0 : Fin 1))
    (fun b hb => match b, hb with | ⟨0, _⟩, _ => rfl | ⟨1, _⟩, hb => absurd rfl hb)
    (by show 0 + 1 = 1; rfl)

/-- 96 rows of two columns over 32 rows of a constant: a row below 96 is the first part's. -/
theorem padRows_apply (A : S96x2.Idx → α) (z : α) (h : Shape.Concatenates [S96x2, S32x2] S128x2 0)
    (n : Fin 128) (hn : n.val < 96) (c : Fin 2) :
    concatenate S128x2 0 [⟨S96x2, A⟩, ⟨S32x2, broadcast S32x2 z⟩] h (ix2 n c) = A (ix2 (⟨n.val, hn⟩ : Fin 96) c) :=
  concatenate_pair_apply_left (s₁ := S96x2) (s₂ := S32x2) _ A _ h (ix2 n c) rfl (ix2 (⟨n.val, hn⟩ : Fin 96) c)
    (fun b => match b with | ⟨0, _⟩ => rfl | ⟨1, _⟩ => rfl)

end Columns

/-- Window 3 after the body: row n < 96, column 0, holds the head bias of row n. -/
theorem headBias_apply (x0 : Vec Ideal S1008x96 .f32) (x1 : Vec Ideal S96 .f32) (n : Fin 128) (hn : n.val < 96) :
    Gen.out0_3 (F := Ideal) x0 x1 (ix2 n 0) = x1 (ix1 ⟨n.val, hn⟩) := by
  unfold Gen.out0_3
  rw [View.canon_unit_zero off2_zero]
  simp only [View.ld_unit_zero (S := S1008x96) off2_zero, View.ld_unit_zero (S := S96) off1_zero]
  unfold Gen.k0_pay3
  refine (padRows_apply _ _ _ n hn (0 : Fin 2)).trans ?_
  refine (pairCols_left _ _ _ (⟨n.val, hn⟩ : Fin 96)).trans ?_
  refine (transpose_ix2_apply _ _ (⟨n.val, hn⟩ : Fin 96) (0 : Fin 1)).trans ?_
  exact shapeCast_a_1a_apply x1 _ (0 : Fin 1) (⟨n.val, hn⟩ : Fin 96)

/-- Window 3 after the body: row n < 96, column 1, holds the sum over the positions of the folded weight of column n. -/
theorem rowSum_apply (x0 : Vec Ideal S1008x96 .f32) (x1 : Vec Ideal S96 .f32) (n : Fin 128) (hn : n.val < 96) :
    Gen.out0_3 (F := Ideal) x0 x1 (ix2 n 1) = ∑ s : Fin 512, foldK (fun q => x0 (ix2 q ⟨n.val, hn⟩)) s := by
  unfold Gen.out0_3
  rw [View.canon_unit_zero off2_zero]
  simp only [View.ld_unit_zero (S := S1008x96) off2_zero, View.ld_unit_zero (S := S96) off1_zero]
  unfold Gen.k0_pay3
  refine (padRows_apply _ _ _ n hn (1 : Fin 2)).trans ?_
  refine (pairCols_right _ _ _ (⟨n.val, hn⟩ : Fin 96)).trans ?_
  refine (shapeCast_a_a1_apply _ _ (⟨n.val, hn⟩ : Fin 96) (0 : Fin 1)).trans ?_
  refine (laneSum_apply _ _ _ _ (⟨n.val, hn⟩ : Fin 96)).trans ?_
  exact Finset.sum_congr rfl fun s _ => pay1_apply x0 (⟨n.val, hn⟩ : Fin 96) s

end Cert.KernelIdeal.PrepValue
-- ==== Proof.PrepArrays.lean ====
/-
  The first region's two output arrays after the region. The region has a single point and every window is a whole
  array: the block a window stages is the array itself, and what the one point writes back is the whole output. So
  each output array ends holding what the body leaves in its buffer from the two input arrays.
-/
import proofs.«114494_g2000605969816161_pallasbulk_1287_5_alg».proof.Proof.Gen.KernelIdeal.Frame
import Idealize.ShloMosaic.Lib.Pipeline.Value
import Idealize.ShloMosaic.PureOps.Ideal

noncomputable section

namespace Cert.KernelIdeal.PrepArrays

open Cert.KernelIdeal Idealize.ShloMosaic Idealize.ShloMosaic.TcCoe
open Idealize.ShloMosaic.Pipeline (Dat Cfg Window)

variable (V : (c : Dev nD) → (b : Ref sig .tc) → Buf (Elt Ideal) ((c : Thread nD τ).loc b)) (c : Dev nD)

/-! ## A whole-array window's block is the array

Region 0 has no grid: each window's block at its one point is its whole array, at block index 0, so an
element of the block sits in the array at its own coordinates. -/

/-- Window 0's block, read off the entry contents, is the head weight array itself. -/
theorem block_weight (t : Fin cfg0.N) : Gen.iblk0 (F := Ideal) V c 0 t = V c main_arg3 := by
  unfold Gen.iblk0
  funext y
  show V c main_arg3 (((cfg0.win 0).blk t).view.emb y) = V c main_arg3 y
  refine congrArg (V c main_arg3) ?_
  funext a
  exact Fin.ext (Window.rect_emb_val_of_index_zero win0_0 t a rfl y)

/-- Window 1's block, read off the entry contents, is the head bias array itself. -/
theorem block_bias (t : Fin cfg0.N) : Gen.iblk0 (F := Ideal) V c 1 t = V c main_arg4 := by
  unfold Gen.iblk0
  funext y
  show V c main_arg4 (((cfg0.win 1).blk t).view.emb y) = V c main_arg4 y
  refine congrArg (V c main_arg4) ?_
  funext a
  exact Fin.ext (Window.rect_emb_val_of_index_zero win0_1 t a rfl y)

/-! ## Output window 2: the folded weight -/

/-- A [128, 512] array read through window 2's block is the array. -/
theorem read_whole_folded (t : Fin cfg0.N) (G : Vec Ideal S128x512 .f32) :
    ((cfg0.win 2).blk t).view.read (Elt Ideal) G = G := by
  funext j
  show G (((cfg0.win 2).blk t).view.emb j) = G j
  refine congrArg G ?_
  funext a
  exact Fin.ext (Window.rect_emb_val_of_index_zero win0_2 t a rfl j)

/-- The part of a [128, 512] block that window 2 writes back is all of it. -/
theorem cut_whole_folded (t : Fin cfg0.N) (G : Vec Ideal S128x512 .f32) :
    (cfg0.win 2).cut (grid0.coords t) G = G := by
  funext j
  show G ((cfg0.win 2).xinj (grid0.coords t) j) = G j
  refine congrArg G ?_
  funext a
  exact Fin.ext rfl

/-- The body's result for window 2 on the input blocks is its result on the input arrays. -/
theorem folded_of_blocks (t : Fin cfg0.N) :
    Gen.out0_2 (F := Ideal) (Gen.iblk0 V c 0 t) (Gen.iblk0 V c 1 t)
      = Gen.out0_2 (F := Ideal) (V c main_arg3) (V c main_arg4) := by
  rw [block_weight V c t, block_bias V c t]

/-- What the one point writes back to window 2 is the whole of the body's result on the two input arrays. -/
theorem flushed_folded (t : Fin cfg0.N) :
    (Gen.dat0 V c).flushed 2 t
      = ((cfg0.win 2).blk t).view.read (Elt Ideal) (Gen.out0_2 (F := Ideal) (V c main_arg3) (V c main_arg4)) := by
  show (cfg0.win 2).cut (grid0.coords t) ((Gen.dat0 V c).after 2 t) = _
  rw [Gen.after0_2, folded_of_blocks V c t]
  exact (cut_whole_folded t _).trans (read_whole_folded t _).symm

/-- An index of the array is in the point's block iff each coordinate is in the block's range on its axis. -/
theorem mem_block_folded (t : Fin cfg0.N) (i : S128x512.Idx) :
    i ∈ ((cfg0.win 2).blk t).view.set ↔ ∀ a : Fin 2, win0_2.index t a * S128x512.size a ≤ (i a).val
      ∧ (i a).val < win0_2.index t a * S128x512.size a + S128x512.size a := by
  show i ∈ ((View.whole main_call0_v0_0).slice (win0_2.rect t)).set ↔ _
  rw [View.set_slice_whole, Rect.mem_set_unit]
  exact Iff.rfl

/-- The one point's block covers the whole array. -/
theorem cover_folded (i : S128x512.Idx) :
    ∃ t : Fin cfg0.N, (cfg0.win 2).flush t = true ∧ i ∈ ((cfg0.win 2).blk t).view.set := by
  refine ⟨Gen.t0_0, Gen.flush0_2 Gen.t0_0, ?_⟩
  rw [mem_block_folded]
  intro a
  have h : (i a).val < S128x512.size a := (i a).isLt
  show 0 * S128x512.size a ≤ (i a).val ∧ (i a).val < 0 * S128x512.size a + S128x512.size a
  omega

/-- The array of window 2 after the region: the body's result on the two input arrays as the region finds them. -/
theorem folded_array : (Gen.dat0 V c).arrAt 2 cfg0.N = Gen.out0_2 (F := Ideal) (V c main_arg3) (V c main_arg4) :=
  (Gen.dat0 V c).arrAt_eq_of_cover 2 (Gen.out0_2 (F := Ideal) (V c main_arg3) (V c main_arg4))
    (fun t _ => flushed_folded V c t) cover_folded

/-! ## Output window 3: the head bias and the row sums -/

/-- A [128, 2] array read through window 3's block is the array. -/
theorem read_whole_cols (t : Fin cfg0.N) (G : Vec Ideal S128x2 .f32) :
    ((cfg0.win 3).blk t).view.read (Elt Ideal) G = G := by
  funext j
  show G (((cfg0.win 3).blk t).view.emb j) = G j
  refine congrArg G ?_
  funext a
  exact Fin.ext (Window.rect_emb_val_of_index_zero win0_3 t a rfl j)

/-- The part of a [128, 2] block that window 3 writes back is all of it. -/
theorem cut_whole_cols (t : Fin cfg0.N) (G : Vec Ideal S128x2 .f32) :
    (cfg0.win 3).cut (grid0.coords t) G = G := by
  funext j
  show G ((cfg0.win 3).xinj (grid0.coords t) j) = G j
  refine congrArg G ?_
  funext a
  exact Fin.ext rfl

/-- The body's result for window 3 on the input blocks is its result on the input arrays. -/
theorem cols_of_blocks (t : Fin cfg0.N) :
    Gen.out0_3 (F := Ideal) (Gen.iblk0 V c 0 t) (Gen.iblk0 V c 1 t)
      = Gen.out0_3 (F := Ideal) (V c main_arg3) (V c main_arg4) := by
  rw [block_weight V c t, block_bias V c t]

/-- What the one point writes back to window 3 is the whole of the body's result on the two input arrays. -/
theorem flushed_cols (t : Fin cfg0.N) :
    (Gen.dat0 V c).flushed 3 t
      = ((cfg0.win 3).blk t).view.read (Elt Ideal) (Gen.out0_3 (F := Ideal) (V c main_arg3) (V c main_arg4)) := by
  show (cfg0.win 3).cut (grid0.coords t) ((Gen.dat0 V c).after 3 t) = _
  rw [Gen.after0_3, cols_of_blocks V c t]
  exact (cut_whole_cols t _).trans (read_whole_cols t _).symm

/-- An index of the array is in the point's block iff each coordinate is in the block's range on its axis. -/
theorem mem_block_cols (t : Fin cfg0.N) (i : S128x2.Idx) :
    i ∈ ((cfg0.win 3).blk t).view.set ↔ ∀ a : Fin 2, win0_3.index t a * S128x2.size a ≤ (i a).val
      ∧ (i a).val < win0_3.index t a * S128x2.size a + S128x2.size a := by
  show i ∈ ((View.whole main_call0_v0_1).slice (win0_3.rect t)).set ↔ _
  rw [View.set_slice_whole, Rect.mem_set_unit]
  exact Iff.rfl

/-- The one point's block covers the whole array. -/
theorem cover_cols (i : S128x2.Idx) :
    ∃ t : Fin cfg0.N, (cfg0.win 3).flush t = true ∧ i ∈ ((cfg0.win 3).blk t).view.set := by
  refine ⟨Gen.t0_0, Gen.flush0_3 Gen.t0_0, ?_⟩
  rw [mem_block_cols]
  intro a
  have h : (i a).val < S128x2.size a := (i a).isLt
  show 0 * S128x2.size a ≤ (i a).val ∧ (i a).val < 0 * S128x2.size a + S128x2.size a
  omega

/-- The array of window 3 after the region: the body's result on the two input arrays as the region finds them. -/
theorem cols_array : (Gen.dat0 V c).arrAt 3 cfg0.N = Gen.out0_3 (F := Ideal) (V c main_arg3) (V c main_arg4) :=
  (Gen.dat0 V c).arrAt_eq_of_cover 3 (Gen.out0_3 (F := Ideal) (V c main_arg3) (V c main_arg4))
    (fun t _ => flushed_cols V c t) cover_cols

end Cert.KernelIdeal.PrepArrays
-- ==== Proof.KerChain.lean ====
/-
  What each buffer of the kernel program holds at each boundary of its run.

  The run is: region 0 (it reads the head's weight and bias and writes the folded weight and its column
  terms), region 1 (it reads the series, the normalisation's weight and bias and region 0's two results,
  and writes the result array), then two host constants (the two scalar results, both zero).  A region
  changes only its own output arrays, and a host operation only the buffer it writes; so every buffer a
  later stage reads is found by walking the fold of boundary contents back to where it was last written.
-/
import proofs.«114494_g2000605969816161_pallasbulk_1287_5_alg».proof.Proof.Gen.KernelIdeal.Frame
import Idealize.ShloMosaic.Lib.StableHlo.Run
import Idealize.ShloMosaic.Lib.Pipeline.Value
import Idealize.ShloMosaic.PureOps.Ideal.Laws

set_option maxRecDepth 16384

noncomputable section

namespace Cert.KernelIdeal.KerChain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## Region 0 enters on the launch memory -/

theorem V0_headW : Gen.V0 m ρ c main_arg3 = m ((c : Thread nD τ).loc main_arg3) := rfl
theorem V0_headB : Gen.V0 m ρ c main_arg4 = m ((c : Thread nD τ).loc main_arg4) := rfl

/-! ## Region 1 enters on the launch memory with region 0's two results in place -/

theorem V1_series : Gen.V1 m ρ c main_arg0 = m ((c : Thread nD τ).loc main_arg0) :=
  (Gen.W1_of_ne m ρ c main_arg0 (by decide)).trans rfl
theorem V1_weight : Gen.V1 m ρ c main_arg1 = m ((c : Thread nD τ).loc main_arg1) :=
  (Gen.W1_of_ne m ρ c main_arg1 (by decide)).trans rfl
theorem V1_bias : Gen.V1 m ρ c main_arg2 = m ((c : Thread nD τ).loc main_arg2) :=
  (Gen.W1_of_ne m ρ c main_arg2 (by decide)).trans rfl
theorem V1_folded : Gen.V1 m ρ c main_call0_v0_0 = (Gen.dat0 (Gen.V0 m ρ) c).arrAt 2 cfg0.N :=
  Gen.W1_arr m ρ c 2
theorem V1_cols : Gen.V1 m ρ c main_call0_v0_1 = (Gen.dat0 (Gen.V0 m ρ) c).arrAt 3 cfg0.N :=
  Gen.W1_arr m ρ c 3

/-! ## After the host tail -/

theorem W3_result : Gen.W3 m ρ c (Proc.devRef .tc main_v0_0) = (Gen.dat1 (Gen.V1 m ρ) c).arrAt 5 cfg1.N :=
  calc Gen.W3 m ρ c (Proc.devRef .tc main_v0_0)
    _ = Gen.W2 m ρ c (Proc.devRef .tc main_v0_0) := StableHlo.after_of_forall_not_mem (b := Proc.devRef .tc main_v0_0) _ _ (List.forall_iff_forall_mem.mp (by
          simp only [hostOps2, List.Forall, StableHlo.nullary_writes, Finset.mem_singleton]
          repeat' apply And.intro
          all_goals exact StableHlo.devRef_ne_of_ne (by decide)))
    _ = (Gen.dat1 (Gen.V1 m ρ) c).arrAt 5 cfg1.N := Gen.W2_arr m ρ c 5

theorem W3_zero1 : (Gen.W3 m ρ c (Proc.devRef .tc main_v0_1) : S_.Idx → EReal) = (fun _ => (0 : EReal)) := by
  show StableHlo.after hostOps2 _ (Proc.devRef .tc main_v0_1) = _
  after_results
  funext i
  exact Ideal.ofBits_zero_f32

theorem W3_zero2 : (Gen.W3 m ρ c (Proc.devRef .tc main_v0_2) : S_.Idx → EReal) = (fun _ => (0 : EReal)) := by
  show StableHlo.after hostOps2 _ (Proc.devRef .tc main_v0_2) = _
  after_results
  funext i
  exact Ideal.ofBits_zero_f32

end Cert.KernelIdeal.KerChain

end
-- ==== Proof.KerValue.lean ====
/-
  The kernel program's result, entry by entry, as a function of its five arguments. The first region folds the
  head weight onto time positions and stores, beside it, the head bias and the folded weight's row sums; the second
  region computes, per batch element, the normalised forecast from its slab of the input and those arrays. Chaining
  the two: the result at (b, n, k) is the arrangement outK of the series of batch element b and channel k, the
  folded row n of the head weight, channel k's affine weight and bias, and row n's head bias.
-/
import proofs.«114494_g2000605969816161_pallasbulk_1287_5_alg».proof.Proof.Spec
import proofs.«114494_g2000605969816161_pallasbulk_1287_5_alg».proof.Proof.MainBody
import proofs.«114494_g2000605969816161_pallasbulk_1287_5_alg».proof.Proof.MainArray
import proofs.«114494_g2000605969816161_pallasbulk_1287_5_alg».proof.Proof.PrepValue
import proofs.«114494_g2000605969816161_pallasbulk_1287_5_alg».proof.Proof.PrepArrays
import proofs.«114494_g2000605969816161_pallasbulk_1287_5_alg».proof.Proof.KerChain

set_option maxRecDepth 16384

noncomputable section

namespace Cert.KernelIdeal.KerValue

open Idealize.ShloMosaic Idealize.ShloMosaic.TcCoe Idealize.ShloMosaic.ValueIdx Idealize.SL.Sem
open Cert.KernelIdeal Cert.KernelIdeal.Gen Cert.NormHead

variable (m : (ℓ : Loc nD τ sig) → Buf (Elt Ideal) ℓ) (ρ : Dev nD → PrngReg) (c : Dev nD)

/-- The five arguments as launched, as functions of an index. -/
abbrev series : S64x512x321.Idx → EReal := m ((c : Thread nD τ).loc main_arg0)
abbrev weight : S321.Idx → EReal := m ((c : Thread nD τ).loc main_arg1)
abbrev bias : S321.Idx → EReal := m ((c : Thread nD τ).loc main_arg2)
abbrev head : S1008x96.Idx → EReal := m ((c : Thread nD τ).loc main_arg3)
abbrev headBias : S96.Idx → EReal := m ((c : Thread nD τ).loc main_arg4)

/-- The result at an index, as a function of the arguments. -/
def result : S64x96x321.Idx → EReal := fun i =>
  outK (fun s => series m c (ix3 (i 0) s (i 2))) (foldK (fun q => head m c (ix2 q (i 1))))
    (weight m c (ix1 (i 2))) (bias m c (ix1 (i 2))) (headBias m c (ix1 (i 1)))

/-- The series the body sees for channel k in batch element b's slab is the input's. -/
theorem ser_slab (b : Fin 64) (k : Fin 321) :
    MainBody.ser (MainArray.slab (Gen.V1 m ρ) c b) k = fun s => series m c (ix3 b s k) := by
  funext s
  show Gen.V1 m ρ c main_arg0 (ix3 b s k) = _
  rw [KerChain.V1_series m ρ c]

/-- Row n of the folded weight as the second region finds it. -/
theorem folded_row (n : Fin 96) (s : Fin 512) :
    (Gen.V1 m ρ c main_call0_v0_0 : S128x512.Idx → EReal) (ix2 ⟨n.val, by omega⟩ s)
      = foldK (fun q => head m c (ix2 q n)) s := by
  rw [KerChain.V1_folded m ρ c, PrepArrays.folded_array (Gen.V0 m ρ) c, KerChain.V0_headW m ρ c,
    PrepValue.folded_apply _ _ ⟨n.val, by omega⟩ s n.isLt]

/-- Row n's head bias as the second region finds it. -/
theorem bias_entry (n : Fin 96) :
    (Gen.V1 m ρ c main_call0_v0_1 : S128x2.Idx → EReal) (ix2 ⟨n.val, by omega⟩ (0 : Fin 2)) = headBias m c (ix1 n) := by
  rw [KerChain.V1_cols m ρ c, PrepArrays.cols_array (Gen.V0 m ρ) c, KerChain.V0_headB m ρ c,
    PrepValue.headBias_apply _ _ ⟨n.val, by omega⟩ n.isLt]

/-- Row n's sum of the folded weight as the second region finds it. -/
theorem rowSum_entry (n : Fin 96) :
    (Gen.V1 m ρ c main_call0_v0_1 : S128x2.Idx → EReal) (ix2 ⟨n.val, by omega⟩ (1 : Fin 2))
      = ∑ s : Fin 512, foldK (fun q => head m c (ix2 q n)) s := by
  rw [KerChain.V1_cols m ρ c, PrepArrays.cols_array (Gen.V0 m ρ) c, KerChain.V0_headW m ρ c,
    PrepValue.rowSum_apply _ _ ⟨n.val, by omega⟩ n.isLt]

/-- The result buffer after the run holds the result function. -/
theorem result_eq : (Gen.W3 m ρ c (Proc.devRef .tc main_v0_0) : S64x96x321.Idx → EReal) = result m c := by
  rw [KerChain.W3_result m ρ c, MainArray.result_array (Gen.V1 m ρ) c]
  funext i
  obtain ⟨b, n, k, rfl⟩ : ∃ (b : Fin 64) (n : Fin 96) (k : Fin 321), i = ix3 b n k := ⟨i 0, i 1, i 2, eq_ix3 i⟩
  show out1_5 (F := Ideal) (MainArray.slab (Gen.V1 m ρ) c b) (Gen.V1 m ρ c main_arg1) (Gen.V1 m ρ c main_arg2)
      (Gen.V1 m ρ c main_call0_v0_0) (Gen.V1 m ρ c main_call0_v0_1) (ix3 (0 : Fin 1) n k) = _
  rw [MainBody.body_apply, ser_slab m ρ c b k, bias_entry m ρ c n, rowSum_entry m ρ c n,
    KerChain.V1_weight m ρ c, KerChain.V1_bias m ρ c]
  simp only [folded_row m ρ c n]
  rfl

end Cert.KernelIdeal.KerValue

end
-- ==== Proof.RefHostFacts.lean ====
/-
  What the reference's kernel finds in its six operand arrays, each as a function of the program's arguments, read
  at an index: the series array is the input with time last and (batch, channel) flattened to rows, padded to a
  multiple of the row tile; the weight, bias and reciprocal columns repeat the per-channel values once per batch
  element; the head weight is folded onto time positions; the head bias is padded to the lane width. Only rows below
  64 · 321 and columns below 96 are ever read back, so only those are stated.
  This file states the facts; RefHost.lean proves them, RefValue.lean uses them.
-/
import proofs.«114494_g2000605969816161_pallasbulk_1287_5_alg».proof.Proof.Gen.ReferenceIdeal.Frame
import proofs.«114494_g2000605969816161_pallasbulk_1287_5_alg».proof.Proof.Spec
import Idealize.ShloMosaic.Lib.ValueIdx

noncomputable section

namespace Cert.ReferenceIdeal.HostSide

open Idealize.ShloMosaic Idealize.ShloMosaic.TcCoe Idealize.SL.Sem Cert.ReferenceIdeal Cert.NormHead
open Idealize.ShloMosaic.ValueIdx

variable (m : (ℓ : Loc nD τ sig) → Buf (Elt Ideal) ℓ) (c : Dev nD)

/-- The five arguments as launched, as functions of an index. -/
abbrev series : S64x512x321.Idx → EReal := m ((c : Thread nD τ).loc main_arg0)
abbrev weight : S321.Idx → EReal := m ((c : Thread nD τ).loc main_arg1)
abbrev bias : S321.Idx → EReal := m ((c : Thread nD τ).loc main_arg2)
abbrev head : S1008x96.Idx → EReal := m ((c : Thread nD τ).loc main_arg3)
abbrev headBias : S96.Idx → EReal := m ((c : Thread nD τ).loc main_arg4)

/-- Row r of the flattened (batch, channel) axis is batch r / 321, channel r % 321. -/
structure Facts : Prop where
  rows : ∀ (r : Fin 20736) (s : Fin 512) (hr : r.val < 20544),
    (Gen.V m c main_v2 : S20736x512.Idx → EReal) (ix2 r s)
      = series m c (ix3 ⟨r.val / 321, by omega⟩ s ⟨r.val % 321, Nat.mod_lt _ (by norm_num)⟩)
  weightCol : ∀ (r : Fin 20736) (hr : r.val < 20544),
    (Gen.V m c main_v15 : S20736x1.Idx → EReal) (ix2 r 0) = weight m c (ix1 ⟨r.val % 321, Nat.mod_lt _ (by norm_num)⟩)
  biasCol : ∀ (r : Fin 20736) (hr : r.val < 20544),
    (Gen.V m c main_v16 : S20736x1.Idx → EReal) (ix2 r 0) = bias m c (ix1 ⟨r.val % 321, Nat.mod_lt _ (by norm_num)⟩)
  recipCol : ∀ (r : Fin 20736) (hr : r.val < 20544),
    (Gen.V m c main_v17 : S20736x1.Idx → EReal) (ix2 r 0)
      = Ideal.div one (weight m c (ix1 ⟨r.val % 321, Nat.mod_lt _ (by norm_num)⟩) + epsSq)
  folded : ∀ (s : Fin 512) (n : Fin 128) (hn : n.val < 96),
    (Gen.V m c main_v40 : S512x128.Idx → EReal) (ix2 s n) = foldR (fun q => head m c (ix2 q ⟨n.val, hn⟩)) s
  headBiasRow : ∀ (n : Fin 128) (hn : n.val < 96),
    (Gen.V m c main_v20 : S1x128.Idx → EReal) (ix2 0 n) = headBias m c (ix1 ⟨n.val, hn⟩)

end Cert.ReferenceIdeal.HostSide

end
-- ==== Proof.RefHost.lean ====
/-
  The reference's host operations before its kernel, read at an index. Each of the six arrays the kernel reads is a
  chain of layout operations over one argument (a transposition, reshapes, a broadcast, a padding), two of them with
  pointwise arithmetic on top (the reciprocal of the offset weight) or a scatter underneath (the head weight folded
  onto time positions). The chain is first named as a term of the arguments, then read at an index one operation at
  a time; only rows below 64 · 321 and columns below 96 are read, where no padding shows.
-/
import proofs.«114494_g2000605969816161_pallasbulk_1287_5_alg».proof.Proof.RefHostFacts
import Idealize.ShloMosaic.Lib.Pipeline.Value
import Idealize.ShloMosaic.Lib.ValueLayout
import Idealize.ShloMosaic.Lib.StableHlo.Run
import Idealize.ShloMosaic.Lib.KernelVsHost
import Idealize.ShloMosaic.PureOps.Ideal.Laws

set_option maxRecDepth 16384

noncomputable section

namespace Cert.ReferenceIdeal.HostSide

open Idealize.ShloMosaic Idealize.ShloMosaic.TcCoe Idealize.SL.Sem Cert.ReferenceIdeal Cert.NormHead
open Idealize.ShloMosaic.ValueIdx Idealize.ShloMosaic.StableHlo

variable (m : (ℓ : Loc nD τ sig) → Buf (Elt Ideal) ℓ) (c : Dev nD)

/-! ## The layout chains read at an index

Each prepared array is a chain of layout operations over one argument. Reading the chain at an index, outermost
operation first, names the one entry of the argument it holds: a padding leaves the leading rows alone, a reshape keeps
the row-major position (row r of the flattened axis is batch r / 321, channel r % 321), a transposition swaps
coordinates, a broadcast forgets the coordinates it repeats along. -/

section Chains

/-- The series with time moved last, (batch, channel) flattened and the rows padded: row r, time s is the series at
    batch r / 321, time s, channel r % 321. -/
theorem rows_apply (X : S64x512x321.Idx → EReal) (v : S_.Idx → EReal) (r : Fin 20736) (s : Fin 512) (hr : r.val < 20544) :
    pad S20736x512 ![0, 0] ![192, 0] ![0, 0]
        (shapeCast S20544x512 (transpose S64x321x512 [0, 2, 1] X Gen.transposes_S64x512x321_S64x321x512_0_2_1)
          Gen.shapeCasts_S64x321x512_S20544x512)
        v Gen.pads_S20544x512_S20736x512_01920_000 Gen.h_S_ (ix2 r s)
      = X (ix3 ⟨r.val / 321, by omega⟩ s ⟨r.val % 321, Nat.mod_lt _ (by norm_num)⟩) := by
  have hb : r.val / 321 < 64 := by omega
  have hc : r.val % 321 < 321 := Nat.mod_lt _ (by norm_num)
  refine (pad_apply_of_inside _ _ _ _ _ _ _ (ix2 r s) (ix2 (⟨r.val, hr⟩ : Fin 20544) s) (fun a => match a with
    | ⟨0, _⟩ => by show r.val = 0 + r.val * (0 + 1); omega
    | ⟨1, _⟩ => by show s.val = 0 + s.val * (0 + 1); omega)).trans ?_
  refine (shapeCast_apply _ _ (ix2 (⟨r.val, hr⟩ : Fin 20544) s)
    (ix3 (⟨r.val / 321, hb⟩ : Fin 64) (⟨r.val % 321, hc⟩ : Fin 321) s)
    (by rw [Shape.rowMajor_val_three, Shape.rowMajor_val_two]
        show (r.val / 321 * 321 + r.val % 321) * 512 + s.val = r.val * 512 + s.val
        omega)).trans ?_
  exact transpose_apply _ _ _ (ix3 (⟨r.val / 321, hb⟩ : Fin 64) (⟨r.val % 321, hc⟩ : Fin 321) s)
    (ix3 (⟨r.val / 321, hb⟩ : Fin 64) s (⟨r.val % 321, hc⟩ : Fin 321))
    (fun b => match b with | ⟨0, _⟩ => rfl | ⟨1, _⟩ => rfl | ⟨2, _⟩ => rfl)

/-- A per-channel vector repeated once per batch element and laid out as a column. -/
abbrev col (x : S321.Idx → EReal) : S20544x1.Idx → EReal :=
  shapeCast S20544x1
    (shapeCast S20544
      (broadcastInDim S64x321 ![0, 1] Gen.bcast_S1x321_S64x321_0_1 (shapeCast S1x321 x Gen.shapeCasts_S321_S1x321))
      Gen.shapeCasts_S64x321_S20544)
    Gen.shapeCasts_S20544_S20544x1

/-- Row r of the column is the vector's entry at channel r % 321. -/
theorem col_apply (x : S321.Idx → EReal) (r : Fin 20544) :
    col x (ix2 r 0) = x (ix1 ⟨r.val % 321, Nat.mod_lt _ (by norm_num)⟩) := by
  have hr : r.val < 20544 := r.isLt
  have hb : r.val / 321 < 64 := by omega
  have hc : r.val % 321 < 321 := Nat.mod_lt _ (by norm_num)
  refine (shapeCast_apply _ _ (ix2 r (0 : Fin 1)) (ix1 r)
    (by rw [Shape.rowMajor_val_one, Shape.rowMajor_val_two]
        show r.val = r.val * 1 + 0
        omega)).trans ?_
  refine (shapeCast_apply _ _ (ix1 r) (ix2 (⟨r.val / 321, hb⟩ : Fin 64) (⟨r.val % 321, hc⟩ : Fin 321))
    (by rw [Shape.rowMajor_val_two, Shape.rowMajor_val_one]
        show r.val / 321 * 321 + r.val % 321 = r.val
        omega)).trans ?_
  refine (broadcastInDim_apply _ _ _ (ix2 (⟨r.val / 321, hb⟩ : Fin 64) (⟨r.val % 321, hc⟩ : Fin 321))
    (ix2 (0 : Fin 1) (⟨r.val % 321, hc⟩ : Fin 321))
    (fun a => match a with | ⟨0, _⟩ => rfl | ⟨1, _⟩ => rfl)).trans ?_
  exact shapeCast_apply _ _ (ix2 (0 : Fin 1) (⟨r.val % 321, hc⟩ : Fin 321)) (ix1 (⟨r.val % 321, hc⟩ : Fin 321))
    (by rw [Shape.rowMajor_val_one, Shape.rowMajor_val_two]
        show r.val % 321 = 0 * 321 + r.val % 321
        omega)

/-- A column padded to the row tile keeps its leading rows. -/
theorem padCol_apply (y : S20544x1.Idx → EReal) (v : S_.Idx → EReal) (r : Fin 20736) (hr : r.val < 20544) :
    pad S20736x1 ![0, 0] ![192, 0] ![0, 0] y v Gen.pads_S20544x1_S20736x1_01920_000 Gen.h_S_ (ix2 r 0)
      = y (ix2 ⟨r.val, hr⟩ 0) :=
  pad_apply_of_inside _ _ _ _ _ _ _ (ix2 r (0 : Fin 1)) (ix2 (⟨r.val, hr⟩ : Fin 20544) (0 : Fin 1)) (fun a => match a with
    | ⟨0, _⟩ => by show r.val = 0 + r.val * (0 + 1); omega
    | ⟨1, _⟩ => by show 0 = 0 + 0 * (0 + 1); omega)

/-- A constant broadcast to a column is the constant at every row. -/
theorem splatCol_apply (b : BitVec 32) (j : S20544x1.Idx) :
    broadcastInDim S20544x1 ![] Gen.bcast_S_S20544x1 (constant (F := Ideal) S_ .f32 b) j = Ideal.ofBits .f32 b :=
  broadcastInDim_apply _ _ _ j ix0 (fun a => a.elim0)

/-- The head bias padded to the lane width and laid out as one row keeps its leading entries. -/
theorem headBiasRow_apply (y : S96.Idx → EReal) (v : S_.Idx → EReal) (n : Fin 128) (hn : n.val < 96) :
    shapeCast S1x128 (pad S128 ![0] ![32] ![0] y v Gen.pads_S96_S128_0320 Gen.h_S_) Gen.shapeCasts_S128_S1x128 (ix2 0 n)
      = y (ix1 ⟨n.val, hn⟩) := by
  refine (shapeCast_apply _ _ (ix2 (0 : Fin 1) n) (ix1 n)
    (by rw [Shape.rowMajor_val_one, Shape.rowMajor_val_two]
        show n.val = 0 * 128 + n.val
        omega)).trans ?_
  exact pad_apply_of_inside _ _ _ _ _ _ _ (ix1 n) (ix1 (⟨n.val, hn⟩ : Fin 96)) (fun a => match a with
    | ⟨0, _⟩ => by show n.val = 0 + n.val * (0 + 1); omega)

end Chains

/-! ## The prepared arrays as composed terms of the arguments

Each array the kernel reads is, when the kernel is entered, the value of the chain of host operations that wrote it,
applied to the arguments as launched. -/

section Terms

/-- The zero word converted to a float: the value every padding writes. -/
abbrev padZero : S_.Idx → EReal := sitofp (F := Ideal) .f32 (constantI S_ 32 0#32)

set_option maxHeartbeats 4000000 in
theorem V_rows : (Gen.V m c main_v2 : S20736x512.Idx → EReal)
    = pad S20736x512 ![0, 0] ![192, 0] ![0, 0]
        (shapeCast S20544x512 (transpose S64x321x512 [0, 2, 1] (series m c) Gen.transposes_S64x512x321_S64x321x512_0_2_1)
          Gen.shapeCasts_S64x321x512_S20544x512)
        padZero Gen.pads_S20544x512_S20736x512_01920_000 Gen.h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rfl

set_option maxHeartbeats 4000000 in
theorem V_weightCol : (Gen.V m c main_v15 : S20736x1.Idx → EReal)
    = pad S20736x1 ![0, 0] ![192, 0] ![0, 0] (col (weight m c)) (constant (F := Ideal) S_ .f32 0x3F800000#32)
        Gen.pads_S20544x1_S20736x1_01920_000 Gen.h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rfl

set_option maxHeartbeats 4000000 in
theorem V_biasCol : (Gen.V m c main_v16 : S20736x1.Idx → EReal)
    = pad S20736x1 ![0, 0] ![192, 0] ![0, 0] (col (bias m c)) padZero
        Gen.pads_S20544x1_S20736x1_01920_000 Gen.h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rfl

set_option maxHeartbeats 4000000 in
theorem V_recipCol : (Gen.V m c main_v17 : S20736x1.Idx → EReal)
    = pad S20736x1 ![0, 0] ![192, 0] ![0, 0]
        (Host.divf (broadcastInDim S20544x1 ![] Gen.bcast_S_S20544x1 (constant (F := Ideal) S_ .f32 0x3F800000#32))
          (addf (col (weight m c))
            (broadcastInDim S20544x1 ![] Gen.bcast_S_S20544x1 (constant (F := Ideal) S_ .f32 0x2EDBE6FF#32))))
        (constant (F := Ideal) S_ .f32 0x3F800000#32)
        Gen.pads_S20544x1_S20736x1_01920_000 Gen.h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rfl

set_option maxHeartbeats 4000000 in
theorem V_headBiasRow : (Gen.V m c main_v20 : S1x128.Idx → EReal)
    = shapeCast S1x128 (pad S128 ![0] ![32] ![0] (headBias m c) padZero Gen.pads_S96_S128_0320 Gen.h_S_)
        Gen.shapeCasts_S128_S1x128 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rfl

end Terms

/-! ## The five arrays without a scatter, at an index -/

section Fields

theorem rows_at (r : Fin 20736) (s : Fin 512) (hr : r.val < 20544) :
    (Gen.V m c main_v2 : S20736x512.Idx → EReal) (ix2 r s)
      = series m c (ix3 ⟨r.val / 321, by omega⟩ s ⟨r.val % 321, Nat.mod_lt _ (by norm_num)⟩) := by
  rw [V_rows]
  exact rows_apply (series m c) padZero r s hr

theorem weightCol_at (r : Fin 20736) (hr : r.val < 20544) :
    (Gen.V m c main_v15 : S20736x1.Idx → EReal) (ix2 r 0)
      = weight m c (ix1 ⟨r.val % 321, Nat.mod_lt _ (by norm_num)⟩) := by
  rw [V_weightCol]
  exact (padCol_apply _ _ r hr).trans (col_apply (weight m c) ⟨r.val, hr⟩)

theorem biasCol_at (r : Fin 20736) (hr : r.val < 20544) :
    (Gen.V m c main_v16 : S20736x1.Idx → EReal) (ix2 r 0)
      = bias m c (ix1 ⟨r.val % 321, Nat.mod_lt _ (by norm_num)⟩) := by
  rw [V_biasCol]
  exact (padCol_apply _ _ r hr).trans (col_apply (bias m c) ⟨r.val, hr⟩)

/-- The reciprocal column: the quotient of the constant 1 by the offset weight, row by row. -/
theorem recipCol_at (r : Fin 20736) (hr : r.val < 20544) :
    (Gen.V m c main_v17 : S20736x1.Idx → EReal) (ix2 r 0)
      = Ideal.div one (weight m c (ix1 ⟨r.val % 321, Nat.mod_lt _ (by norm_num)⟩) + epsSq) := by
  rw [V_recipCol]
  refine (padCol_apply _ _ r hr).trans ?_
  show Ideal.div
      (broadcastInDim S20544x1 ![] Gen.bcast_S_S20544x1 (constant (F := Ideal) S_ .f32 0x3F800000#32) (ix2 ⟨r.val, hr⟩ 0))
      (col (weight m c) (ix2 ⟨r.val, hr⟩ 0)
        + broadcastInDim S20544x1 ![] Gen.bcast_S_S20544x1 (constant (F := Ideal) S_ .f32 0x2EDBE6FF#32) (ix2 ⟨r.val, hr⟩ 0))
    = _
  rw [splatCol_apply, splatCol_apply, col_apply (weight m c) ⟨r.val, hr⟩]

theorem headBiasRow_at (n : Fin 128) (hn : n.val < 96) :
    (Gen.V m c main_v20 : S1x128.Idx → EReal) (ix2 0 n) = headBias m c (ix1 ⟨n.val, hn⟩) := by
  rw [V_headBiasRow]
  exact headBiasRow_apply (headBias m c) padZero n hn

end Fields

/-! ## The folded head weight

The sixth array is a scatter-add of the padded head weight onto a zero array: update (q, n') is added at row
timeOf q = 8 · (q / 16) + q % 16, column n'. The row comes from an index array computed in 32-bit integers; read as
signed integers its entries are the time positions themselves, all inside the array, so every update lands and the
entry at (s, n) is the sum of the rows q with timeOf q = s at column n. -/

section Scatter

/-- The scatter's dimension numbers: the update's row picks the time position, its column is the window. -/
abbrev dS : ScatterDims S512x128 S1008x1 S1008x128 := scatter_S512x128_S1008x1_S1008x128_1_0_0_1

theorem window0 (j : S1008x128.Idx) : dS.window j (0 : Fin 2) = 0 := rfl
theorem window1 (j : S1008x128.Idx) : dS.window j (1 : Fin 2) = (j 1).val := rfl
theorem start1 (j : S1008x128.Idx) (idx : IVec S1008x1 32) : dS.start j idx (1 : Fin 2) = 0 := rfl
theorem start0 (j : S1008x128.Idx) (idx : IVec S1008x1 32) :
    dS.start j idx (0 : Fin 2) = (idx (ix2 (j 0) 0)).toInt := by
  show (idx (dS.siIdx j ⟨_, _⟩)).toInt = _
  refine congrArg (fun k => (idx k).toInt) (funext fun b => ?_)
  match b with
  | ⟨0, _⟩ => rfl
  | ⟨1, _⟩ => rfl

end Scatter

section TimeWords

/-- The time position of each row of the flattened head weight, as 32-bit words: 8 · patch + offset over a
    [63, 16] grid, flattened. -/
abbrev timeWords : S1008.Idx → BitVec 32 :=
  shapeCast S1008
    (addi
      (broadcastInDim S63x16 ![0, 1] Gen.bcast_S63x1_S63x16_0_1
        (addi (broadcastInDim S63x1 ![] Gen.bcast_S_S63x1 (constantI S_ 32 0#32))
          (muli (broadcastInDim S63x1 ![0] Gen.bcast_S63_S63x1_0 (iotaInDim S63 32 0))
            (broadcastInDim S63x1 ![] Gen.bcast_S_S63x1 (constantI S_ 32 8#32)))))
      (broadcastInDim S63x16 ![0, 1] Gen.bcast_S1x16_S63x16_0_1
        (broadcastInDim S1x16 ![1] Gen.bcast_S16_S1x16_1 (iotaInDim S16 32 0))))
    Gen.shapeCasts_S63x16_S1008

/-- Small naturals as 32-bit words: 0 + a · 8 + b is the word of 8 a + b. -/
theorem word_arith (a b : Nat) (ha : a < 63) (hb : b < 16) :
    (0#32 + BitVec.ofNat 32 a * 8#32) + BitVec.ofNat 32 b = BitVec.ofNat 32 (8 * a + b) := by
  apply BitVec.eq_of_toNat_eq
  simp only [BitVec.toNat_add, BitVec.toNat_mul, BitVec.toNat_ofNat, Nat.reducePow, Nat.reduceMod]
  omega

/-- A word below 512 read as a signed integer is itself. -/
theorem toInt_small (t : Nat) (ht : t < 512) : (BitVec.ofNat 32 t).toInt = (t : Int) := by
  rw [BitVec.toInt_eq_toNat_cond]
  simp only [BitVec.toNat_ofNat, Nat.reducePow]
  have e : t % 4294967296 = t := Nat.mod_eq_of_lt (by omega)
  rw [e, if_pos (by omega)]

theorem timeWords_apply (q : Fin 1008) : timeWords (ix1 q) = BitVec.ofNat 32 (timeOf q).val := by
  have hq : q.val < 1008 := q.isLt
  have ha : q.val / 16 < 63 := by omega
  have hb : q.val % 16 < 16 := Nat.mod_lt _ (by norm_num)
  refine (shapeCast_apply _ _ (ix1 q) (ix2 (⟨q.val / 16, ha⟩ : Fin 63) (⟨q.val % 16, hb⟩ : Fin 16))
    (by rw [Shape.rowMajor_val_two, Shape.rowMajor_val_one]
        show q.val / 16 * 16 + q.val % 16 = q.val
        omega)).trans ?_
  show (0#32 + BitVec.ofNat 32 (q.val / 16) * 8#32) + BitVec.ofNat 32 (q.val % 16) = _
  exact word_arith _ _ ha hb

/-- The scatter's index array: a negative time would wrap by 512, none is negative, and each row's word becomes a
    one-entry index vector. -/
abbrev timeIdx : S1008x1.Idx → BitVec 32 :=
  broadcastInDim S1008x1 ![0] Gen.bcast_S1008_S1008x1_0
    (select (cmpi .slt timeWords (broadcastInDim S1008 ![] Gen.bcast_S_S1008 (constantI S_ 32 0#32)))
      (addi timeWords (broadcastInDim S1008 ![] Gen.bcast_S_S1008 (constantI S_ 32 512#32)))
      timeWords)

theorem timeIdx_apply (q : Fin 1008) : (timeIdx (ix2 q 0)).toInt = ((timeOf q).val : Int) := by
  have ht : (timeOf q).val < 512 := (timeOf q).isLt
  have e : timeIdx (ix2 q 0) = BitVec.ofNat 32 (timeOf q).val := by
    refine (broadcastInDim_apply _ _ _ (ix2 q (0 : Fin 1)) (ix1 q) (fun a => match a with | ⟨0, _⟩ => rfl)).trans ?_
    show Scalar.select (IntOp.cmpi .slt (timeWords (ix1 q)) 0#32) (IntOp.addi (timeWords (ix1 q)) 512#32) (timeWords (ix1 q)) = _
    rw [timeWords_apply]
    have hc : IntOp.cmpi .slt (BitVec.ofNat 32 (timeOf q).val) 0#32 = 0#1 := by
      show BitVec.ofBool ((BitVec.ofNat 32 (timeOf q).val).slt 0#32) = 0#1
      have : (BitVec.ofNat 32 (timeOf q).val).slt 0#32 = false := by
        rw [BitVec.slt, toInt_small _ ht]
        simp
      rw [this]; rfl
    rw [hc, select_zero]
  rw [e, toInt_small _ ht]

end TimeWords

section Fold

/-- Update (q, n') lands on the time position of row q, column n'. -/
theorem resultIdx_eq (idx : IVec S1008x1 32) (q : Fin 1008) (n' : Fin 128) (t : Fin 512)
    (ht : (idx (ix2 q 0)).toInt = (t.val : Int)) :
    dS.resultIdx? (ix2 q n') idx = some (ix2 t n') := by
  have h0 : dS.start (ix2 q n') idx (0 : Fin 2) = (t.val : Int) := (start0 _ idx).trans ht
  have H : ∀ a : Fin 2, dS.start (ix2 q n') idx a + (dS.window (ix2 q n') a : Int)
      = (((ix2 t n' : S512x128.Idx) a).val : Int) := by
    intro a
    match a with
    | ⟨0, _⟩ =>
      show dS.start (ix2 q n') idx (0 : Fin 2) + ((dS.window (ix2 q n') (0 : Fin 2) : Nat) : Int) = (t.val : Int)
      rw [h0, window0]; simp
    | ⟨1, _⟩ =>
      show dS.start (ix2 q n') idx (1 : Fin 2) + ((dS.window (ix2 q n') (1 : Fin 2) : Nat) : Int) = (n'.val : Int)
      rw [start1, window1]; simp
  unfold ScatterDims.resultIdx?
  have hall : ∀ a : Fin 2, 0 ≤ dS.start (ix2 q n') idx a + (dS.window (ix2 q n') a : Int)
      ∧ dS.start (ix2 q n') idx a + (dS.window (ix2 q n') a : Int) < (S512x128.size a : Int) := by
    intro a
    rw [H a]
    exact ⟨Int.natCast_nonneg _, by exact_mod_cast ((ix2 t n' : S512x128.Idx) a).isLt⟩
  rw [dif_pos hall]
  refine congrArg some (funext fun a => Fin.ext ?_)
  show (dS.start (ix2 q n') idx a + (dS.window (ix2 q n') a : Int)).toNat = ((ix2 t n' : S512x128.Idx) a).val
  rw [H a]
  exact Int.toNat_natCast _

/-- The updates that land on (s, n) are the rows whose time position is s, at column n. -/
theorem fold_sum (idx : IVec S1008x1 32) (hidx : ∀ q : Fin 1008, (idx (ix2 q 0)).toInt = ((timeOf q).val : Int))
    (upd : S1008x128.Idx → EReal) (s : Fin 512) (n : Fin 128)
    [DecidablePred fun j : S1008x128.Idx => dS.resultIdx? j idx = some (ix2 s n)]
    [DecidablePred fun q : Fin 1008 => timeOf q = s] :
    ∑ j ∈ Finset.univ.filter (fun j : S1008x128.Idx => dS.resultIdx? j idx = some (ix2 s n)), upd j
      = ∑ q ∈ Finset.univ.filter (fun q : Fin 1008 => timeOf q = s), upd (ix2 q n) := by
  have P : ∀ (q : Fin 1008) (n' : Fin 128),
      dS.resultIdx? (ix2 q n') idx = some (ix2 s n) ↔ (timeOf q = s ∧ n' = n) := by
    intro q n'
    rw [resultIdx_eq idx q n' (timeOf q) (hidx q)]
    constructor
    · intro h
      have h' := Option.some.inj h
      exact ⟨congrFun h' (0 : Fin 2), congrFun h' (1 : Fin 2)⟩
    · rintro ⟨rfl, rfl⟩; rfl
  refine (Finset.sum_filter _ _).trans ?_
  refine (sum_idx2 _).trans ?_
  refine Eq.trans ?_ (Finset.sum_filter _ _).symm
  refine Finset.sum_congr rfl fun q _ => ?_
  beta_reduce
  by_cases hq : timeOf q = s
  · rw [if_pos hq, Finset.sum_eq_single n]
    · exact if_pos ((P q n).2 ⟨hq, rfl⟩)
    · intro b _ hb; exact if_neg (fun h => hb ((P q b).1 h).2)
    · intro h; exact absurd (Finset.mem_univ _) h
  · rw [if_neg hq]
    exact Finset.sum_eq_zero fun b _ => if_neg (fun h => hq ((P q b).1 h).1)

end Fold

section Folded

set_option maxHeartbeats 4000000 in
theorem V_folded : (Gen.V m c main_v40 : S512x128.Idx → EReal)
    = Host.scatterAdd scatter_S512x128_S1008x1_S1008x128_1_0_0_1
        (broadcastInDim S512x128 ![] Gen.bcast_S_S512x128 (constant (F := Ideal) S_ .f32 0x00000000#32))
        timeIdx
        (pad S1008x128 ![0, 0] ![0, 32] ![0, 0] (head m c) padZero Gen.pads_S1008x96_S1008x128_000_0320 Gen.h_S_) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rfl

/-- The folded head weight: the zero array plus, at (s, n), the head weight's rows whose time position is s. -/
theorem folded_at (s : Fin 512) (n : Fin 128) (hn : n.val < 96) :
    (Gen.V m c main_v40 : S512x128.Idx → EReal) (ix2 s n) = foldR (fun q => head m c (ix2 q ⟨n.val, hn⟩)) s := by
  rw [V_folded]
  show Ideal.hostScatterAdd dS
      (broadcastInDim S512x128 ![] Gen.bcast_S_S512x128 (constant (F := Ideal) S_ .f32 0x00000000#32)) timeIdx
      (pad S1008x128 ![0, 0] ![0, 32] ![0, 0] (head m c) padZero Gen.pads_S1008x96_S1008x128_000_0320 Gen.h_S_)
      (ix2 s n) = _
  unfold Ideal.hostScatterAdd foldR
  refine congrArg₂ (· + ·) ?_ ((fold_sum timeIdx timeIdx_apply _ s n).trans ?_)
  · exact (broadcastInDim_apply _ _ _ (ix2 s n) ix0 (fun a => a.elim0)).trans Ideal.ofBits_zero_f32
  · refine Finset.sum_congr rfl fun q _ => ?_
    exact pad_apply_of_inside _ _ _ _ _ _ _ (ix2 q n) (ix2 q (⟨n.val, hn⟩ : Fin 96)) (fun a => match a with
      | ⟨0, _⟩ => by show q.val = 0 + q.val * (0 + 1); omega
      | ⟨1, _⟩ => by show n.val = 0 + n.val * (0 + 1); omega)

end Folded

/-- What the reference's kernel finds in its six operand arrays. -/
theorem facts : Facts m c where
  rows := rows_at m c
  weightCol := weightCol_at m c
  biasCol := biasCol_at m c
  recipCol := recipCol_at m c
  folded := folded_at m c
  headBiasRow := headBiasRow_at m c

end Cert.ReferenceIdeal.HostSide
end
-- ==== Proof.RefValue.lean ====
/-
  What the reference program computes. Its one kernel works on row blocks of 256 rows of a [20736, 512] series array
  (row = batch element × channel, padded): for each row it takes the mean and the variance over the 512 time positions,
  normalises the row, applies the row's affine weight and bias, multiplies by the head weight folded onto time positions
  ([512, 128]), adds the head bias, subtracts the row's bias, rescales by the row's reciprocal offset weight times the
  standard deviation, and adds the mean back: Spec.lean's `outRi` of that row's data. This file reads the kernel's
  arithmetic at one entry (row r, column n) of a block, places each block in its array (row block t covers rows
  256 t … 256 t + 255, and the 81 blocks cover all 20736 rows), and follows the three layout operations after the kernel
  (keep rows < 20544 and columns < 96; split the rows into 64 × 321; exchange the last two axes), so that the result at
  (b, n, k) is the array's entry at row 321 b + k, column n. With what the operand arrays hold (RefHostFacts.lean) that
  entry is `outR` of the arguments' series (b, ·, k), head-weight column n, and channel k's weight and bias.
-/
import proofs.«114494_g2000605969816161_pallasbulk_1287_5_alg».proof.Proof.RefHostFacts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.ReferenceIdeal.RefValue

open Cert.ReferenceIdeal Cert.ReferenceIdeal.Gen Cert.NormHead
open Idealize.ShloMosaic Idealize.ShloMosaic.TcCoe Idealize.SL.Sem
open Idealize.ShloMosaic.Pipeline (Dat)
open Idealize.ShloMosaic.ValueIdx

/-! ## Layout operations of the body, read at coordinates -/

theorem zero_offsets : (![0, 0] : Fin 2 → Nat) = fun _ => 0 := funext fun a => by fin_cases a <;> rfl

/-- A column `[a, 1]` broadcast along rows to `[a, b]` reads, at `(r, s)`, the column at row `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (s : Fin b) :
    broadcastTo ⟨2, ![a, b]⟩ v h (ix2 r s) = v (ix2 r (0 : Fin 1)) := by
  refine broadcastTo_apply v h (ix2 r s) (ix2 r (0 : Fin 1)) fun ax => ?_
  match ax with
  | ⟨0, _⟩ =>
    show r.val = if a = 1 then 0 else r.val
    split
    · have := r.isLt; omega
    · rfl
  | ⟨1, _⟩ => rfl

/-- A vector `[a]` cast to the column `[a, 1]` reads, at `(r, u)`, the vector at `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The sum along the lanes of a `[256, 512]` block, kept as a column, reads at row `r` the sum of that row. -/
theorem laneSum_apply (x : FVec Ideal S256x512 .f32) (hacc : (0x00000000#32 : BitVec 32) = 0x00000000#32) (r : Fin 256) (u : Fin 1) :
    shapeCast S256x1 (multiReduction (F := Ideal) .add [1] S256 x 0x00000000#32 Facts₀.reduces_S256x512_S256 (.inl rfl) hacc) Facts₀.shapeCasts_S256_S256x1 (ix2 r u)
      = ∑ s : Fin 512, x (ix2 r s) := by
  refine (shapeCast_a_a1_apply _ _ r u).trans ?_
  refine (Ideal.multiReduction_add_single x 0x00000000#32 Facts₀.reduces_S256x512_S256 (.inl rfl) hacc (ix1 r)).trans ?_
  refine Finset.sum_congr rfl fun s _ => congrArg x ?_
  funext ax
  match ax with
  | ⟨0, _⟩ => rfl
  | ⟨1, _⟩ => rfl

/-- The block product against the folded head weight, read at `(r, n)`: the sum over the 512 time positions. -/
theorem matmul_apply_rn (A : FVec Ideal S256x512 .f32) (B : FVec Ideal S512x128 .f32) (r : Fin 256) (n : Fin 128) :
    matmul dot_S256x512_S512x128_S256x128_1_0_0_1_n_n none A B (constant (F := Ideal) S256x128 .f32 0x00000000#32) (ix2 r n)
      = ∑ s : Fin 512, A (ix2 r s) * B (ix2 s n) := by
  refine (Ideal.matmul_constant_zero_apply dot_S256x512_S512x128_S256x128_1_0_0_1_n_n none A B (ix2 r n)).trans ?_
  refine (Equiv.sum_comp (contrEquiv1 dot_S256x512_S512x128_S256x128_1_0_0_1_n_n 512 rfl rfl).symm _).symm.trans ?_
  refine Finset.sum_congr rfl fun s _ => ?_
  have hl : dot_S256x512_S512x128_S256x128_1_0_0_1_n_n.lhsIdx (ix2 r n)
      ((contrEquiv1 dot_S256x512_S512x128_S256x128_1_0_0_1_n_n 512 rfl rfl).symm s) = ix2 r s := by
    funext a; apply Fin.ext
    match a with
    | ⟨0, _⟩ => rfl
    | ⟨1, _⟩ =>
      exact (DotDims.lhsIdx_val_of_single dot_S256x512_S512x128_S256x128_1_0_0_1_n_n (cl := 1) rfl _ _).trans
        (contrEquiv1_symm_val dot_S256x512_S512x128_S256x128_1_0_0_1_n_n 512 rfl rfl s)
  have hr : dot_S256x512_S512x128_S256x128_1_0_0_1_n_n.rhsIdx (ix2 r n)
      ((contrEquiv1 dot_S256x512_S512x128_S256x128_1_0_0_1_n_n 512 rfl rfl).symm s) = ix2 s n := by
    funext a; apply Fin.ext
    match a with
    | ⟨0, _⟩ =>
      exact (DotDims.rhsIdx_val_of_single dot_S256x512_S512x128_S256x128_1_0_0_1_n_n (cr := 0) rfl _ _).trans
        (contrEquiv1_symm_val dot_S256x512_S512x128_S256x128_1_0_0_1_n_n 512 rfl rfl s)
    | ⟨1, _⟩ => rfl
  rw [hl, hr]

/-! ## The body's payloads at an index -/

section Body
variable (x0 : Vec Ideal S256x512 .f32) (x1 x2 x3 : Vec Ideal S256x1 .f32) (x4 : Vec Ideal S512x128 .f32) (x5 : Vec Ideal S1x128 .f32)

theorem selfCast_eq : k0_pay2 x0 = x0 := by
  unfold k0_pay2; exact shapeCast_self _ _

/-- The row mean. -/
theorem rowMean_apply (r : Fin 256) (u : Fin 1) : k0_pay3 x0 (ix2 r u) = mean (fun s => x0 (ix2 r s)) := by
  unfold k0_pay3 mean
  show shapeCast S256x1 (multiReduction (F := Ideal) .add [1] S256 (k0_pay2 x0) 0x00000000#32 Facts₀.reduces_S256x512_S256 (.inl rfl) rfl) Facts₀.shapeCasts_S256_S256x1 (ix2 r u) * invLen = _
  rw [laneSum_apply, selfCast_eq]

/-- The centred series. -/
theorem centred_apply (r : Fin 256) (s : Fin 512) : k0_pay4 x0 (ix2 r s) = x0 (ix2 r s) - mean (fun s => x0 (ix2 r s)) := by
  unfold k0_pay4
  show k0_pay2 x0 (ix2 r s) - broadcastTo S256x512 (k0_pay3 x0) Facts₀.broadcasts_S256x1_S256x512 (ix2 r s) = _
  rw [broadcastTo_a1_ab_apply, rowMean_apply, selfCast_eq]

/-- The row variance. -/
theorem rowVar_apply (r : Fin 256) (u : Fin 1) : k0_pay5 x0 (ix2 r u) = var (fun s => x0 (ix2 r s)) := by
  unfold k0_pay5 var
  show shapeCast S256x1 (multiReduction (F := Ideal) .add [1] S256 (mulf (k0_pay4 x0) (k0_pay4 x0)) 0x00000000#32 Facts₀.reduces_S256x512_S256 (.inl rfl) rfl) Facts₀.shapeCasts_S256_S256x1 (ix2 r u) * invLen = _
  rw [laneSum_apply]
  refine congrArg (· * invLen) (Finset.sum_congr rfl fun s _ => ?_)
  show k0_pay4 x0 (ix2 r s) * k0_pay4 x0 (ix2 r s) = _
  rw [centred_apply]

/-- The reciprocal standard deviation. -/
theorem rowIstd_apply (r : Fin 256) (u : Fin 1) : k0_pay6 x0 (ix2 r u) = istd (fun s => x0 (ix2 r s)) := by
  unfold k0_pay6 istd
  show Ideal.rsqrt (k0_pay5 x0 (ix2 r u) + eps) = _
  rw [rowVar_apply]

/-- The reciprocal of the offset weight times the standard deviation. -/
theorem recipStd_apply (r : Fin 256) (u : Fin 1) :
    k0_pay8 x0 x3 (ix2 r u) = x3 (ix2 r u) * std (fun s => x0 (ix2 r s)) := by
  unfold k0_pay8 std
  show shapeCast S256x1 x3 Facts₀.shapeCasts_S256x1_S256x1 (ix2 r u) * ((k0_pay5 x0 (ix2 r u) + eps) * k0_pay6 x0 (ix2 r u)) = _
  rw [shapeCast_self, rowVar_apply, rowIstd_apply]

/-- The head product of the normalised, affinely mapped series, plus the head bias. -/
theorem headProduct_apply (r : Fin 256) (n : Fin 128) :
    k0_pay7 x0 x1 x2 x4 x5 (ix2 r n)
      = (∑ s : Fin 512, ((x0 (ix2 r s) - mean (fun s => x0 (ix2 r s))) * istd (fun s => x0 (ix2 r s)) * x1 (ix2 r 0) + x2 (ix2 r 0)) * x4 (ix2 s n))
        + x5 (ix2 0 n) := by
  unfold k0_pay7
  show matmul dot_S256x512_S512x128_S256x128_1_0_0_1_n_n none
        (addf (mulf (mulf (k0_pay4 x0) (broadcastTo S256x512 (k0_pay6 x0) Facts₀.broadcasts_S256x1_S256x512))
            (broadcastTo S256x512 (shapeCast S256x1 x1 Facts₀.shapeCasts_S256x1_S256x1) Facts₀.broadcasts_S256x1_S256x512))
          (broadcastTo S256x512 (shapeCast S256x1 x2 Facts₀.shapeCasts_S256x1_S256x1) Facts₀.broadcasts_S256x1_S256x512))
        (shapeCast S512x128 x4 Facts₀.shapeCasts_S512x128_S512x128) (constant (F := Ideal) S256x128 .f32 0x00000000#32) (ix2 r n)
      + broadcastTo S256x128 (shapeCast S1x128 x5 Facts₀.shapeCasts_S1x128_S1x128) Facts₀.broadcasts_S1x128_S256x128 (ix2 r n) = _
  rw [matmul_apply_rn, broadcastTo_1b_ab_apply, shapeCast_self, shapeCast_self, shapeCast_self, shapeCast_self]
  refine congrArg (· + x5 (ix2 0 n)) (Finset.sum_congr rfl fun s _ => ?_)
  show (k0_pay4 x0 (ix2 r s) * broadcastTo S256x512 (k0_pay6 x0) Facts₀.broadcasts_S256x1_S256x512 (ix2 r s)
        * broadcastTo S256x512 x1 Facts₀.broadcasts_S256x1_S256x512 (ix2 r s)
        + broadcastTo S256x512 x2 Facts₀.broadcasts_S256x1_S256x512 (ix2 r s)) * x4 (ix2 s n) = _
  rw [broadcastTo_a1_ab_apply, broadcastTo_a1_ab_apply, broadcastTo_a1_ab_apply, centred_apply, rowIstd_apply]

/-- THE BODY AT AN INDEX: what the body leaves in the output block at `(r, n)` is the entry computed in order from
    row `r` of the series block, column `n` of the folded head weight, and row `r`'s weight, bias and reciprocal. -/
theorem body_apply (r : Fin 256) (n : Fin 128) :
    out0_6 x0 x1 x2 x3 x4 x5 (ix2 r n)
      = outRi (fun s => x0 (ix2 r s)) (fun s => x4 (ix2 s n)) (x1 (ix2 r 0)) (x2 (ix2 r 0)) (x5 (ix2 0 n)) (x3 (ix2 r 0)) := by
  unfold out0_6
  rw [View.canon_unit_zero zero_offsets]
  simp only [View.ld_unit_zero (S := S256x512) zero_offsets, View.ld_unit_zero (S := S256x1) zero_offsets, View.ld_unit_zero (S := S512x128) zero_offsets,
    View.ld_unit_zero (S := S1x128) zero_offsets]
  unfold k0_pay1 outRi
  show (k0_pay7 x0 x1 x2 x4 x5 (ix2 r n)
        - broadcastTo S256x128 (shapeCast S256x1 x2 Facts₀.shapeCasts_S256x1_S256x1) Facts₀.broadcasts_S256x1_S256x128 (ix2 r n))
      * broadcastTo S256x128 (k0_pay8 x0 x3) Facts₀.broadcasts_S256x1_S256x128 (ix2 r n)
      + broadcastTo S256x128 (k0_pay3 x0) Facts₀.broadcasts_S256x1_S256x128 (ix2 r n) = _
  rw [shapeCast_self, broadcastTo_a1_ab_apply, broadcastTo_a1_ab_apply, broadcastTo_a1_ab_apply, headProduct_apply, recipStd_apply, rowMean_apply]

end Body

/-! ## From blocks to the array -/

/-- The entry depends on its six data only through their values. -/
theorem outRi_congr {X X' W W' : Fin 512 → EReal} {w w' b b' hb hb' iw iw' : EReal}
    (hX : ∀ s, X s = X' s) (hW : ∀ s, W s = W' s) (hw : w = w') (hb0 : b = b') (hhb : hb = hb') (hiw : iw = iw') :
    outRi X W w b hb iw = outRi X' W' w' b' hb' iw' := by
  obtain rfl : X = X' := funext hX
  obtain rfl : W = W' := funext hW
  subst hw hb0 hhb hiw
  rfl

section Blocks
variable (m : (ℓ : Loc nD τ sig) → Buf (Elt Ideal) ℓ)

/-- The block index maps over the grid: at point `t` the row-blocked windows are at row block `t`, the two whole
    arrays at block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `r` of row block `t` is row `256 t + r` of the array. -/
theorem row_lt (t : Fin cfg0.N) (r : Fin 256) : 256 * t.val + r.val < 20736 := by
  have h1 := t.isLt
  have hN : cfg0.N = 81 := N_0
  have h2 := r.isLt
  omega

/-- The series window's block at point `t`: rows `256 t …` of the series array. -/
theorem seriesBlock_apply (c : Dev nD) (t : Fin cfg0.N) (r : Fin 256) (s : Fin 512) :
    (iblk m c 0 t : Vec Ideal S256x512 .f32) (ix2 r s)
      = (V m c main_v2 : S20736x512.Idx → EReal) (ix2 ⟨256 * t.val + r.val, row_lt t r⟩ s) := by
  obtain ⟨e0, e1, -⟩ := block_indices t
  unfold iblk
  rw [View.read_apply]
  show (V m c main_v2 : S20736x512.Idx → EReal) _ = _
  refine congrArg (V m c main_v2 : S20736x512.Idx → EReal) (funext fun a => Fin.ext ?_)
  match a with
  | ⟨0, _⟩ => show win0_0.index t (0 : Fin 2) * 256 + 1 * r.val = 256 * t.val + r.val; rw [e0]; omega
  | ⟨1, _⟩ => show win0_0.index t (1 : Fin 2) * 512 + 1 * s.val = s.val; rw [e1]; omega

/-- The weight column's block. -/
theorem weightBlock_apply (c : Dev nD) (t : Fin cfg0.N) (r : Fin 256) (u : Fin 1) :
    (iblk m c 1 t : Vec Ideal S256x1 .f32) (ix2 r u)
      = (V m c main_v15 : S20736x1.Idx → EReal) (ix2 ⟨256 * t.val + r.val, row_lt t r⟩ 0) := by
  obtain ⟨-, -, e0, e1, -⟩ := block_indices t
  unfold iblk
  rw [View.read_apply]
  show (V m c main_v15 : S20736x1.Idx → EReal) _ = _
  refine congrArg (V m c main_v15 : S20736x1.Idx → EReal) (funext fun a => Fin.ext ?_)
  have hu : u.val = 0 := by omega
  match a with
  | ⟨0, _⟩ => show win0_1.index t (0 : Fin 2) * 256 + 1 * r.val = 256 * t.val + r.val; rw [e0]; omega
  | ⟨1, _⟩ => show win0_1.index t (1 : Fin 2) * 1 + 1 * u.val = 0; rw [e1]; omega

/-- The bias column's block. -/
theorem biasBlock_apply (c : Dev nD) (t : Fin cfg0.N) (r : Fin 256) (u : Fin 1) :
    (iblk m c 2 t : Vec Ideal S256x1 .f32) (ix2 r u)
      = (V m c main_v16 : S20736x1.Idx → EReal) (ix2 ⟨256 * t.val + r.val, row_lt t r⟩ 0) := by
  obtain ⟨-, -, -, -, e0, e1, -⟩ := block_indices t
  unfold iblk
  rw [View.read_apply]
  show (V m c main_v16 : S20736x1.Idx → EReal) _ = _
  refine congrArg (V m c main_v16 : S20736x1.Idx → EReal) (funext fun a => Fin.ext ?_)
  have hu : u.val = 0 := by omega
  match a with
  | ⟨0, _⟩ => show win0_2.index t (0 : Fin 2) * 256 + 1 * r.val = 256 * t.val + r.val; rw [e0]; omega
  | ⟨1, _⟩ => show win0_2.index t (1 : Fin 2) * 1 + 1 * u.val = 0; rw [e1]; omega

/-- The reciprocal column's block. -/
theorem recipBlock_apply (c : Dev nD) (t : Fin cfg0.N) (r : Fin 256) (u : Fin 1) :
    (iblk m c 3 t : Vec Ideal S256x1 .f32) (ix2 r u)
      = (V m c main_v17 : S20736x1.Idx → EReal) (ix2 ⟨256 * t.val + r.val, row_lt t r⟩ 0) := by
  obtain ⟨-, -, -, -, -, -, e0, e1, -⟩ := block_indices t
  unfold iblk
  rw [View.read_apply]
  show (V m c main_v17 : S20736x1.Idx → EReal) _ = _
  refine congrArg (V m c main_v17 : S20736x1.Idx → EReal) (funext fun a => Fin.ext ?_)
  have hu : u.val = 0 := by omega
  match a with
  | ⟨0, _⟩ => show win0_3.index t (0 : Fin 2) * 256 + 1 * r.val = 256 * t.val + r.val; rw [e0]; omega
  | ⟨1, _⟩ => show win0_3.index t (1 : Fin 2) * 1 + 1 * u.val = 0; rw [e1]; omega

/-- The folded head weight is staged whole. -/
theorem foldedBlock_apply (c : Dev nD) (t : Fin cfg0.N) (s : Fin 512) (n : Fin 128) :
    (iblk m c 4 t : Vec Ideal S512x128 .f32) (ix2 s n) = (V m c main_v40 : S512x128.Idx → EReal) (ix2 s n) := by
  obtain ⟨-, -, -, -, -, -, -, -, e0, e1, -⟩ := block_indices t
  unfold iblk
  rw [View.read_apply]
  show (V m c main_v40 : S512x128.Idx → EReal) _ = _
  refine congrArg (V m c main_v40 : S512x128.Idx → EReal) (funext fun a => Fin.ext ?_)
  match a with
  | ⟨0, _⟩ => show win0_4.index t (0 : Fin 2) * 512 + 1 * s.val = s.val; rw [e0]; omega
  | ⟨1, _⟩ => show win0_4.index t (1 : Fin 2) * 128 + 1 * n.val = n.val; rw [e1]; omega

/-- The padded head bias is staged whole. -/
theorem headBiasBlock_apply (c : Dev nD) (t : Fin cfg0.N) (u : Fin 1) (n : Fin 128) :
    (iblk m c 5 t : Vec Ideal S1x128 .f32) (ix2 u n) = (V m c main_v20 : S1x128.Idx → EReal) (ix2 0 n) := by
  obtain ⟨-, -, -, -, -, -, -, -, -, -, e0, e1, -⟩ := block_indices t
  unfold iblk
  rw [View.read_apply]
  show (V m c main_v20 : S1x128.Idx → EReal) _ = _
  refine congrArg (V m c main_v20 : S1x128.Idx → EReal) (funext fun a => Fin.ext ?_)
  have hu : u.val = 0 := by omega
  match a with
  | ⟨0, _⟩ => show win0_5.index t (0 : Fin 2) * 1 + 1 * u.val = 0; rw [e0]; omega
  | ⟨1, _⟩ => show win0_5.index t (1 : Fin 2) * 128 + 1 * n.val = n.val; rw [e1]; omega

/-- The output array's entry at row `R`, column `n`, from the six operand arrays as the region finds them. -/
def entry (c : Dev nD) (R : Fin 20736) (n : Fin 128) : EReal :=
  outRi (fun s => (V m c main_v2 : S20736x512.Idx → EReal) (ix2 R s)) (fun s => (V m c main_v40 : S512x128.Idx → EReal) (ix2 s n))
    ((V m c main_v15 : S20736x1.Idx → EReal) (ix2 R 0)) ((V m c main_v16 : S20736x1.Idx → EReal) (ix2 R 0))
    ((V m c main_v20 : S1x128.Idx → EReal) (ix2 0 n)) ((V m c main_v17 : S20736x1.Idx → EReal) (ix2 R 0))

/-- The output array as one function of its index. -/
def outArr (c : Dev nD) : Buf (Elt Ideal) ((c : Thread nD τ).loc main_v41) := fun i => entry m c (i 0) (i 1)

/-- WHAT POINT `t` WRITES BACK is row block `t` of that function. -/
theorem rowBlock_written (c : Dev nD) (t : Fin cfg0.N) (hf : (cfg0.win 6).flush t = true) :
    (dats m 0 c).flushed 6 t = ((cfg0.win 6).blk t).view.read (Elt Ideal) (outArr m c) := by
  show (cfg0.win 6).cut (grid0.coords t) ((dats m 0 c).after 6 t) = _
  rw [after0_6]
  funext j
  obtain ⟨r, n, rfl⟩ : ∃ (r : Fin 256) (n : Fin 128), j = ix2 r n := ⟨j 0, j 1, eq_ix2 j⟩
  show out0_6 (iblk m c 0 t) (iblk m c 1 t) (iblk m c 2 t) (iblk m c 3 t) (iblk m c 4 t) (iblk m c 5 t) (ix2 r n)
      = outArr m c (((cfg0.win 6).blk t).view.emb (ix2 r n))
  have hemb : ((cfg0.win 6).blk t).view.emb (ix2 r n) = (ix2 ⟨256 * t.val + r.val, row_lt t r⟩ n : S20736x128.Idx) := by
    obtain ⟨-, -, -, -, -, -, -, -, -, -, -, -, e0, e1⟩ := block_indices t
    funext a; apply Fin.ext
    match a with
    | ⟨0, _⟩ => show win0_6.index t (0 : Fin 2) * 256 + 1 * r.val = 256 * t.val + r.val; rw [e0]; omega
    | ⟨1, _⟩ => show win0_6.index t (1 : Fin 2) * 128 + 1 * n.val = n.val; rw [e1]; omega
  rw [hemb]
  refine (body_apply (iblk m c 0 t) (iblk m c 1 t) (iblk m c 2 t) (iblk m c 3 t) (iblk m c 4 t) (iblk m c 5 t) r n).trans ?_
  exact outRi_congr (fun s => seriesBlock_apply m c t r s) (fun s => foldedBlock_apply m c t s n) (weightBlock_apply m c t r 0)
    (biasBlock_apply m c t r 0) (headBiasBlock_apply m c t 0 n) (recipBlock_apply m c t r 0)

end Blocks

section Final
variable (m : (ℓ : Loc nD τ sig) → Buf (Elt Ideal) ℓ)

/-- An index of the output array is in point `t`'s block iff each coordinate is in the block's range on its axis. -/
theorem mem_rowBlock (t : Fin cfg0.N) (i : S20736x128.Idx) :
    i ∈ ((cfg0.win 6).blk t).view.set ↔ ∀ a : Fin 2, win0_6.index t a * S256x128.size a ≤ (i a).val ∧ (i a).val < win0_6.index t a * S256x128.size a + S256x128.size a := by
  show i ∈ ((View.whole main_v41).slice (win0_6.rect t)).set ↔ _
  rw [View.set_slice_whole, Rect.mem_set_unit]
  exact Iff.rfl

/-- Row `R` of the output array is in the block of point `R / 256`. -/
theorem rows_covered (i : S20736x128.Idx) : ∃ t : Fin cfg0.N, (cfg0.win 6).flush t = true ∧ i ∈ ((cfg0.win 6).blk t).view.set := by
  have hi0 : (i 0).val < 20736 := (i 0).isLt
  have hi1 : (i 1).val < 128 := (i 1).isLt
  have hN : cfg0.N = 81 := N_0
  obtain ⟨t, ht⟩ : ∃ t : Fin cfg0.N, t.val = (i 0).val / 256 := ⟨⟨(i 0).val / 256, by rw [hN]; omega⟩, rfl⟩
  refine ⟨t, flush0_6 t, ?_⟩
  rw [mem_rowBlock]
  obtain ⟨-, -, -, -, -, -, -, -, -, -, -, -, e0, e1⟩ := block_indices t
  intro a
  match a with
  | ⟨0, _⟩ =>
    show win0_6.index t (0 : Fin 2) * 256 ≤ (i 0).val ∧ (i 0).val < win0_6.index t (0 : Fin 2) * 256 + 256
    rw [e0]; omega
  | ⟨1, _⟩ =>
    show win0_6.index t (1 : Fin 2) * 128 ≤ (i 1).val ∧ (i 1).val < win0_6.index t (1 : Fin 2) * 128 + 128
    rw [e1]; omega

/-- THE OUTPUT ARRAY after the region: at every row and column, the entry of that row of the operand arrays. -/
theorem outArr_after_region (c : Dev nD) : (dats m 0 c).arrAt 6 cfg0.N = outArr m c :=
  (dats m 0 c).arrAt_eq_of_cover 6 (outArr m c) (rowBlock_written m c) rows_covered

/-- Below row 20544 and column 96 the operand arrays are the arguments' data, and the entry is the specification's. -/
theorem entry_eq (c : Dev nD) (hf : HostSide.Facts m c) (R : Fin 20736) (n : Fin 128) (hR : R.val < 20544) (hn : n.val < 96) :
    entry m c R n
      = outR (fun s => HostSide.series m c (ix3 ⟨R.val / 321, by omega⟩ s ⟨R.val % 321, Nat.mod_lt _ (by norm_num)⟩))
          (foldR (fun q => HostSide.head m c (ix2 q ⟨n.val, hn⟩)))
          (HostSide.weight m c (ix1 ⟨R.val % 321, Nat.mod_lt _ (by norm_num)⟩))
          (HostSide.bias m c (ix1 ⟨R.val % 321, Nat.mod_lt _ (by norm_num)⟩))
          (HostSide.headBias m c (ix1 ⟨n.val, hn⟩)) := by
  unfold entry outR
  exact outRi_congr (fun s => hf.rows R s hR) (fun s => hf.folded s n hn) (hf.weightCol R hR) (hf.biasCol R hR)
    (hf.headBiasRow n hn) (hf.recipCol R hR)

/-- The host tail's last result: the output array sliced to its live rows and columns, split into (batch, channel), with
    channel moved last. -/
theorem tail_result (c : Dev nD) :
    Pipeline.afterTail₀ cfgs (dats m) 0 (V0 m) [hostOps1] c main_v44
      = transpose S64x96x321 [0, 2, 1] (shapeCast S64x321x96 (extractStridedSlice S20544x96 ![0, 0] (outArr m c) Facts₀.slices_S20736x128_S20544x96_0_0) Facts₀.shapeCasts_S20544x96_S64x321x96) Facts₀.transposes_S64x321x96_S64x96x321_0_2_1 := by
  unfold Pipeline.afterTail₀
  show StableHlo.after hostOps1 _ (Proc.devRef .tc main_v44) = _
  after_results
  have e : Pipeline.withArrays (cfgs 0).spec c (V0 m c) (fun w => (dats m 0 c).arrAt w (cfgs 0).N) (Proc.devRef .tc main_v41)
      = outArr m c :=
    (Pipeline.withArrays_arr spec0 launch0.win.arr_inj c _ _ 6).trans (outArr_after_region m c)
  rw [e]
  rfl

/-- The two scalar zero constants of the tail. -/
theorem tail_zero_11 (c : Dev nD) :
    Pipeline.afterTail₀ cfgs (dats m) 0 (V0 m) [hostOps1] c main_cst_11 = (fun _ => (0 : EReal)) := by
  unfold Pipeline.afterTail₀
  show StableHlo.after hostOps1 _ (Proc.devRef .tc main_cst_11) = _
  after_results
  funext i
  exact Ideal.ofBits_zero_f32

theorem tail_zero_12 (c : Dev nD) :
    Pipeline.afterTail₀ cfgs (dats m) 0 (V0 m) [hostOps1] c main_cst_12 = (fun _ => (0 : EReal)) := by
  unfold Pipeline.afterTail₀
  show StableHlo.after hostOps1 _ (Proc.devRef .tc main_cst_12) = _
  after_results
  funext i
  exact Ideal.ofBits_zero_f32

end Final

section Run
variable (m : (ℓ : Loc nD τ sig) → Buf (Elt Ideal) ℓ)

theorem ix3_congr {n0 n1 n2 : ℕ} {a a' : Fin n0} {b b' : Fin n1} {c c' : Fin n2}
    (ha : a.val = a'.val) (hb : b.val = b'.val) (hc : c.val = c'.val) : ix3 a b c = ix3 a' b' c' := by
  obtain rfl := Fin.ext ha; obtain rfl := Fin.ext hb; obtain rfl := Fin.ext hc; rfl

theorem ix1_congr {n0 : ℕ} {a a' : Fin n0} (ha : a.val = a'.val) : ix1 a = ix1 a' := by
  obtain rfl := Fin.ext ha; rfl

/-- The slice, the split of the rows into (batch, channel) and the exchange of the last two axes, read at
    `(b', n, k)`: the array at row `321 b' + k`, column `n`. -/
theorem tail_at (X : S20736x128.Idx → EReal) (b' : Fin 64) (n : Fin 96) (k : Fin 321) :
    transpose S64x96x321 [0, 2, 1] (shapeCast S64x321x96 (extractStridedSlice S20544x96 ![0, 0] X Facts₀.slices_S20736x128_S20544x96_0_0) Facts₀.shapeCasts_S20544x96_S64x321x96) Facts₀.transposes_S64x321x96_S64x96x321_0_2_1 (ix3 b' n k)
      = X (ix2 (⟨321 * b'.val + k.val, by omega⟩ : Fin 20736) (⟨n.val, by omega⟩ : Fin 128)) := by
  refine (transpose_ix3_021_apply _ _ b' n k).trans ?_
  refine (shapeCast_apply _ _ (ix3 b' k n) (ix2 (⟨321 * b'.val + k.val, by omega⟩ : Fin 20544) n) ?_).trans ?_
  · rw [Shape.rowMajor_val_two, Shape.rowMajor_val_three]
    show (321 * b'.val + k.val) * 96 + n.val = (b'.val * 321 + k.val) * 96 + n.val
    omega
  · refine extractStridedSlice_apply _ X _ _ _ fun a => ?_
    match a with
    | ⟨0, _⟩ => show 321 * b'.val + k.val = 0 + (321 * b'.val + k.val); omega
    | ⟨1, _⟩ => show n.val = 0 + n.val; omega

/-- The entry, as the specification states it, depends on its five data only through their values. -/
theorem outR_congr {X X' W W' : Fin 512 → EReal} {w w' b b' hb hb' : EReal}
    (hX : ∀ s, X s = X' s) (hW : ∀ s, W s = W' s) (hw : w = w') (hb0 : b = b') (hhb : hb = hb') :
    outR X W w b hb = outR X' W' w' b' hb' := by
  obtain rfl : X = X' := funext hX
  obtain rfl : W = W' := funext hW
  subst hw hb0 hhb
  rfl

/-- The program's result: entry `(b', n, k)` is the specification's entry of series `(b', ·, k)`. -/
theorem result_eq (c : Dev nD) (hf : HostSide.Facts m c) :
    Pipeline.afterTail₀ cfgs (dats m) 0 (V0 m) [hostOps1] c main_v44
      = (fun i : S64x96x321.Idx =>
          outR (fun s => HostSide.series m c (ix3 (i 0) s (i 2))) (foldR (fun q => HostSide.head m c (ix2 q (i 1))))
            (HostSide.weight m c (ix1 (i 2))) (HostSide.bias m c (ix1 (i 2))) (HostSide.headBias m c (ix1 (i 1)))) := by
  rw [tail_result]
  funext i
  obtain ⟨b', n, k, rfl⟩ : ∃ (b' : Fin 64) (n : Fin 96) (k : Fin 321), i = ix3 b' n k := ⟨i 0, i 1, i 2, eq_ix3 i⟩
  refine (tail_at (outArr m c) b' n k).trans ?_
  have hb' := b'.isLt
  have hk := k.isLt
  have hq : (321 * b'.val + k.val) / 321 = b'.val := by omega
  have hr : (321 * b'.val + k.val) % 321 = k.val := by omega
  refine (entry_eq m c hf ⟨321 * b'.val + k.val, by omega⟩ ⟨n.val, by omega⟩ (by show 321 * b'.val + k.val < 20544; omega) n.isLt).trans ?_
  exact outR_congr (fun s => congrArg (HostSide.series m c) (ix3_congr hq rfl hr)) (fun s => rfl)
    (congrArg (HostSide.weight m c) (ix1_congr hr)) (congrArg (HostSide.bias m c) (ix1_congr hr)) rfl

/-- the result at an index, as a function of the arguments -/
def result (m : (ℓ : Loc nD τ sig) → Buf (Elt Ideal) ℓ) (c : Dev nD) : S64x96x321.Idx → EReal := fun i =>
  outR (fun s => HostSide.series m c (ix3 (i 0) s (i 2))) (foldR (fun q => HostSide.head m c (ix2 q (i 1))))
    (HostSide.weight m c (ix1 (i 2))) (HostSide.bias m c (ix1 (i 2))) (HostSide.headBias m c (ix1 (i 1)))

/-- THE RUN of the reference program: it terminates with the result array at `result`, the two scalar constants at zero, and
    the five arguments as launched. -/
theorem run (m : (ℓ : Loc nD τ sig) → Buf (Elt Ideal) ℓ) (ρ : Dev nD → PrngReg) (hf : ∀ c, HostSide.Facts m c) :
    θ_run (defs (F := Ideal)) (onTc (τ := τ) (main (F := Ideal))) ⟨m, fun _ => 0, ρ⟩ (fun r => ∀ c : Dev nD,
        r.2.mem ((c.tc : Thread nD τ).loc main_v44) = result m c
      ∧ r.2.mem ((c.tc : Thread nD τ).loc main_cst_11) = (fun _ => (0 : EReal))
      ∧ r.2.mem ((c.tc : Thread nD τ).loc main_cst_12) = (fun _ => (0 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v44 (Pipeline.mem_restRefs_of main_v44 (by decide) (by decide))).trans (result_eq m c (hf c)),
      ((h c).2 main_cst_11 (Pipeline.mem_restRefs_of main_cst_11 (by decide) (by decide))).trans (tail_zero_11 m c),
      ((h c).2 main_cst_12 (Pipeline.mem_restRefs_of main_cst_12 (by decide) (by decide))).trans (tail_zero_12 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Run

end Cert.ReferenceIdeal.RefValue

end
-- ==== Proof.Bridge.lean ====
/-
  The two programs compute the same forecast. From memories that agree on the five arguments the kernel program
  ends with outK of the arguments at every index and the reference with outR of them, over the two forms of the
  folded head weight. The folds are the same sum (no finiteness needed), and for finite inputs the two
  arrangements agree by distributing the finite sum over time — finiteness of every entry is what the precondition
  gives. The two scalar results are zero in both programs.
-/
import proofs.«114494_g2000605969816161_pallasbulk_1287_5_alg».proof.Defs
import proofs.«114494_g2000605969816161_pallasbulk_1287_5_alg».proof.Proof.Algebra
import proofs.«114494_g2000605969816161_pallasbulk_1287_5_alg».proof.Proof.Finite
import proofs.«114494_g2000605969816161_pallasbulk_1287_5_alg».proof.Proof.KerRun
import proofs.«114494_g2000605969816161_pallasbulk_1287_5_alg».proof.Proof.KerValue
import proofs.«114494_g2000605969816161_pallasbulk_1287_5_alg».proof.Proof.RefHost
import proofs.«114494_g2000605969816161_pallasbulk_1287_5_alg».proof.Proof.RefValue

set_option maxRecDepth 16384

noncomputable section

namespace Cert.Proof.Bridge

open Idealize.ShloMosaic Idealize.ShloMosaic.TcCoe Idealize.ShloMosaic.ValueIdx Idealize.SL.Sem Cert.NormHead

/-- At every index the reference's entry (at arguments equal to the kernel's) is the kernel's entry. -/
theorem result_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (e0 : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4)) :
    Cert.ReferenceIdeal.RefValue.result m' c = Cert.KernelIdeal.KerValue.result m c := by
  obtain ⟨r0, r1, r2, r3, r4⟩ := Cert.KernelIdeal.Finite.args_real m hpre c
  funext i
  unfold Cert.ReferenceIdeal.RefValue.result Cert.KernelIdeal.KerValue.result
  unfold Cert.ReferenceIdeal.HostSide.series Cert.ReferenceIdeal.HostSide.weight Cert.ReferenceIdeal.HostSide.bias
    Cert.ReferenceIdeal.HostSide.head Cert.ReferenceIdeal.HostSide.headBias
  unfold Cert.KernelIdeal.KerValue.series Cert.KernelIdeal.KerValue.weight Cert.KernelIdeal.KerValue.bias
    Cert.KernelIdeal.KerValue.head Cert.KernelIdeal.KerValue.headBias
  rw [e0, e1, e2, e3, e4, foldK_eq_foldR]
  exact (outK_eq_outR _ _ _ _ _ (fun s => r0 _) (foldR_real _ (fun q => r3 _)) (r1 _) (r2 _) (r4 _)).symm

/-- The idealized kernel and the idealized reference, run from memories agreeing on the arguments, end with equal
    results. -/
theorem algebraic : Cert.algebraic_KernelIdeal_ReferenceIdeal := by
  intro m ρ m' ρ' hpre hagree
  refine ⟨fun c => Cert.KernelIdeal.KerValue.result m c, fun _ => (fun _ => (0 : EReal)), fun _ => (fun _ => (0 : EReal)), ?_, ?_⟩
  · refine (θ_run Cert.KernelIdeal.defs _ _).mono (fun r h c => ?_) (Cert.KernelIdeal.KerRun.run_read (F := Ideal) m ρ)
    obtain ⟨h0, h1, h2, ha0, ha1, ha2, ha3, ha4⟩ := h c
    exact ⟨h0.trans (Cert.KernelIdeal.KerValue.result_eq m ρ c), h1.trans (Cert.KernelIdeal.KerChain.W3_zero1 m ρ c),
      h2.trans (Cert.KernelIdeal.KerChain.W3_zero2 m ρ c), ha0, ha1, ha2, ha3, ha4⟩
  · refine (θ_run Cert.ReferenceIdeal.defs _ _).mono (fun r h c => ?_)
      (Cert.ReferenceIdeal.RefValue.run m' ρ' (fun c => Cert.ReferenceIdeal.HostSide.facts m' c))
    obtain ⟨h0, h1, h2, ha0, ha1, ha2, ha3, ha4⟩ := h c
    obtain ⟨e0, e1, e2, e3, e4⟩ := hagree c
    exact ⟨h0.trans (result_agree m m' hpre c e0 e1 e2 e3 e4), h1, h2, ha0, ha1, ha2, ha3, ha4⟩

end Cert.Proof.Bridge

end
-- ==== Proof.lean ====
/-
  The certificate: the weight-folding kernel followed by the per-batch-element forecast kernel computes, on the
  extended reals and for finite inputs, the same [64, 96, 321] forecast as the reference, which normalises each
  (batch, channel) series, applies the per-channel affine map, multiplies by the head weight folded onto time
  positions, adds the head bias and denormalises. The three programs run, fault-free, with their arguments
  unchanged (the frames); the idealization rewrote no operation; and the two idealized programs end with equal
  results (Proof/Bridge.lean, over the value of each program: Proof/KerValue.lean and Proof/RefValue.lean, and the
  algebra joining them: Proof/Algebra.lean).
-/
import proofs.«114494_g2000605969816161_pallasbulk_1287_5_alg».proof.Defs
import proofs.«114494_g2000605969816161_pallasbulk_1287_5_alg».proof.Proof.Bridge
import proofs.«114494_g2000605969816161_pallasbulk_1287_5_alg».proof.Proof.Gen.Kernel
import proofs.«114494_g2000605969816161_pallasbulk_1287_5_alg».proof.Proof.Gen.Kernel.Skeleton
import proofs.«114494_g2000605969816161_pallasbulk_1287_5_alg».proof.Proof.Gen.Kernel.Launch
import proofs.«114494_g2000605969816161_pallasbulk_1287_5_alg».proof.Proof.Gen.Kernel.Points
import proofs.«114494_g2000605969816161_pallasbulk_1287_5_alg».proof.Proof.Gen.Kernel.Frame
import proofs.«114494_g2000605969816161_pallasbulk_1287_5_alg».proof.Proof.Gen.KernelIdeal
import proofs.«114494_g2000605969816161_pallasbulk_1287_5_alg».proof.Proof.Gen.KernelIdeal.Skeleton
import proofs.«114494_g2000605969816161_pallasbulk_1287_5_alg».proof.Proof.Gen.KernelIdeal.Launch
import proofs.«114494_g2000605969816161_pallasbulk_1287_5_alg».proof.Proof.Gen.KernelIdeal.Points
import proofs.«114494_g2000605969816161_pallasbulk_1287_5_alg».proof.Proof.Gen.KernelIdeal.Frame
import proofs.«114494_g2000605969816161_pallasbulk_1287_5_alg».proof.Proof.Gen.ReferenceIdeal
import proofs.«114494_g2000605969816161_pallasbulk_1287_5_alg».proof.Proof.Gen.ReferenceIdeal.Skeleton
import proofs.«114494_g2000605969816161_pallasbulk_1287_5_alg».proof.Proof.Gen.ReferenceIdeal.Launch
import proofs.«114494_g2000605969816161_pallasbulk_1287_5_alg».proof.Proof.Gen.ReferenceIdeal.Points
import proofs.«114494_g2000605969816161_pallasbulk_1287_5_alg».proof.Proof.Gen.ReferenceIdeal.Frame
import proofs.«114494_g2000605969816161_pallasbulk_1287_5_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    Bridge.algebraic⟩

end Cert.Proof

end
